-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v5_0)) (v3 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_v5_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v12) = v2 c
          ∧ r.2.mem ((c.tc : Thread Cert.ReferenceIdeal.nD Cert.ReferenceIdeal.τ).loc Cert.ReferenceIdeal.main_v13) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x8921 : Shape := ⟨2, ![8, 8921]⟩
abbrev S8x2048 : Shape := ⟨2, ![8, 2048]⟩
abbrev S8921x512 : Shape := ⟨2, ![8921, 512]⟩
abbrev S8921 : Shape := ⟨1, ![8921]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x8921 : S_.BroadcastsInDim S8x8921 (![] : Fin 0 → Fin S8x8921.rank)
  reducesTo_S8x8921_S_d0_1 : S8x8921.ReducesTo [0, 1] S_
  bcast_S_S8921x512 : S_.BroadcastsInDim S8921x512 (![] : Fin 0 → Fin S8921x512.rank)
  reducesTo_S8921x512_S_d0_1 : S8921x512.ReducesTo [0, 1] S_
  bcast_S_S8921 : S_.BroadcastsInDim S8921 (![] : Fin 0 → Fin S8921.rank)
  reducesTo_S8921_S_d0 : S8921.ReducesTo [0] S_

variable [Facts]

def fn_part1 {F : FTy → Type} [FloatOps F] (main_arg5 : FVec F S8921 .f32) (main_v13 : IVec S_ 1) (main_v16 : IVec S8921x512 1) : IVec S_ 1 :=
  let main_c_5 : IVec S_ 1 := constantI S_ 1 1#1
  let main_v17 : IVec S_ 1 := (fun x v => Host.reduce IntOp.andi x v reducesTo_S8921x512_S_d0_1 h_S_) main_v16 main_c_5
  let main_v18 : IVec S_ 1 := andi main_v13 main_v17
  let main_v19 : FVec F S8921 .f32 := Host.absf main_arg5
  let main_cst_6 : FVec F S_ .f32 := constant S_ .f32 0x7F800000#32
  let main_v20 : FVec F S8921 .f32 := broadcastInDim S8921 ![] bcast_S_S8921 main_cst_6
  let main_v21 : IVec S8921 1 := cmpf .olt main_v19 main_v20
  let main_c_7 : IVec S_ 1 := constantI S_ 1 1#1
  let main_v22 : IVec S_ 1 := (fun x v => Host.reduce IntOp.andi x v reducesTo_S8921_S_d0 h_S_) main_v21 main_c_7
  let main_v23 : IVec S_ 1 := andi main_v18 main_v22
  main_v23

def fn {F : FTy → Type} [FloatOps F] (main_arg0 : FVec F S8x2048x512 .f32) (main_arg1 : FVec F S8x8921 .f32) (main_arg2 : IVec S8x2048 32) (main_arg3 : FVec F S8921x512 .f32) (main_arg4 : FVec F S8921x512 .f32) (main_arg5 : FVec F S8921 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x8921 .f32 := Host.absf main_arg1
  let main_cst_0 : FVec F S_ .f32 := constant S_ .f32 0x7F800000#32
  let main_v5 : FVec F S8x8921 .f32 := broadcastInDim S8x8921 ![] bcast_S_S8x8921 main_cst_0
  let main_v6 : IVec S8x8921 1 := cmpf .olt main_v4 main_v5
  let main_c_1 : IVec S_ 1 := constantI S_ 1 1#1
  let main_v7 : IVec S_ 1 := (fun x v => Host.reduce IntOp.andi x v reducesTo_S8x8921_S_d0_1 h_S_) main_v6 main_c_1
  let main_v8 : IVec S_ 1 := andi main_v3 main_v7
  let main_v9 : FVec F S8921x512 .f32 := Host.absf main_arg3
  let main_cst_2 : FVec F S_ .f32 := constant S_ .f32 0x7F800000#32
  let main_v10 : FVec F S8921x512 .f32 := broadcastInDim S8921x512 ![] bcast_S_S8921x512 main_cst_2
  let main_v11 : IVec S8921x512 1 := cmpf .olt main_v9 main_v10
  let main_c_3 : IVec S_ 1 := constantI S_ 1 1#1
  let main_v12 : IVec S_ 1 := (fun x v => Host.reduce IntOp.andi x v reducesTo_S8921x512_S_d0_1 h_S_) main_v11 main_c_3
  let main_v13 : IVec S_ 1 := andi main_v8 main_v12
  let main_v14 : FVec F S8921x512 .f32 := Host.absf main_arg4
  let main_cst_4 : FVec F S_ .f32 := constant S_ .f32 0x7F800000#32
  let main_v15 : FVec F S8921x512 .f32 := broadcastInDim S8921x512 ![] bcast_S_S8921x512 main_cst_4
  let main_v16 : IVec S8921x512 1 := cmpf .olt main_v14 main_v15
  fn_part1 (F := F) main_arg5 main_v13 main_v16
-- ==== Kernel.lean ====
abbrev S8x2048x512 : Shape := ⟨3, ![8, 2048, 512]⟩
abbrev S8x8921 : Shape := ⟨2, ![8, 8921]⟩
abbrev S8x2048 : Shape := ⟨2, ![8, 2048]⟩
abbrev S8921x512 : Shape := ⟨2, ![8921, 512]⟩
abbrev S8921 : Shape := ⟨1, ![8921]⟩
abbrev S_ : Shape := ⟨0, ![]⟩
abbrev S9216x512 : Shape := ⟨2, ![9216, 512]⟩
abbrev S9216 : Shape := ⟨1, ![9216]⟩
abbrev S8x8921x2048 : Shape := ⟨3, ![8, 8921, 2048]⟩
abbrev S8x8921x512 : Shape := ⟨3, ![8, 8921, 512]⟩
abbrev S8x1x8921 : Shape := ⟨3, ![8, 1, 8921]⟩
abbrev S1x2048x512 : Shape := ⟨3, ![1, 2048, 512]⟩
abbrev S512x512 : Shape := ⟨2, ![512, 512]⟩
abbrev S512 : Shape := ⟨1, ![512]⟩
abbrev S1x512x2048 : Shape := ⟨3, ![1, 512, 2048]⟩
abbrev S1x512x512 : Shape := ⟨3, ![1, 512, 512]⟩
abbrev S1x1x512 : Shape := ⟨3, ![1, 1, 512]⟩
abbrev S2048x512 : Shape := ⟨2, ![2048, 512]⟩
abbrev S512x2048 : Shape := ⟨2, ![512, 2048]⟩
abbrev S512x1 : Shape := ⟨2, ![512, 1]⟩

abbrev nBuf : Space → Nat
  | .hbm => 35
  | .vmem => 14
  | .smem => 0
  | _ => 0

abbrev bufTy : (tb : Table) → Fin (tcTables nBuf tb) → BufTy
  | .hbm, ⟨0, _⟩ => ⟨S8x2048x512, .f32⟩
  | .hbm, ⟨1, _⟩ => ⟨S8x8921, .f32⟩
  | .hbm, ⟨2, _⟩ => ⟨S8x2048, .i32⟩
  | .hbm, ⟨3, _⟩ => ⟨S8921x512, .f32⟩
  | .hbm, ⟨4, _⟩ => ⟨S8921x512, .f32⟩
  | .hbm, ⟨5, _⟩ => ⟨S8921, .f32⟩
  | .hbm, ⟨6, _⟩ => ⟨S_, .i32⟩
  | .hbm, ⟨7, _⟩ => ⟨S_, .f32⟩
  | .hbm, ⟨8, _⟩ => ⟨S9216x512, .f32⟩
  | .hbm, ⟨9, _⟩ => ⟨S_, .i32⟩
  | .hbm, ⟨10, _⟩ => ⟨S_, .f32⟩
  | .hbm, ⟨11, _⟩ => ⟨S9216x512, .f32⟩
  | .hbm, ⟨12, _⟩ => ⟨S_, .i32⟩
  | .hbm, ⟨13, _⟩ => ⟨S_, .f32⟩
  | .hbm, ⟨14, _⟩ => ⟨S9216, .f32⟩
  | .hbm, ⟨15, _⟩ => ⟨S8x2048x512, .bf16⟩
  | .hbm, ⟨16, _⟩ => ⟨S9216x512, .bf16⟩
  | .hbm, ⟨17, _⟩ => ⟨S8x8921x2048, .f32⟩
  | .hbm, ⟨18, _⟩ => ⟨S8x8921x512, .f32⟩
  | .hbm, ⟨19, _⟩ => ⟨S8x1x8921, .f32⟩
  | .hbm, ⟨20, _⟩ => ⟨S8x8921, .f32⟩
  | .hbm, ⟨21, _⟩ => ⟨S_, .f32⟩
  | .hbm, ⟨22, _⟩ => ⟨S8x8921, .f32⟩
  | .hbm, ⟨23, _⟩ => ⟨S8x8921, .f32⟩
  | .hbm, ⟨24, _⟩ => ⟨S8x8921, .f32⟩
  | .hbm, ⟨25, _⟩ => ⟨S8x8921, .f32⟩
  | .hbm, ⟨26, _⟩ => ⟨S8x8921, .f32⟩
  | .hbm, ⟨27, _⟩ => ⟨S8x8921, .f32⟩
  | .hbm, ⟨28, _⟩ => ⟨S8x8921, .f32⟩
  | .hbm, ⟨29, _⟩ => ⟨S8x8921, .f32⟩
  | .hbm, ⟨30, _⟩ => ⟨S8x8921, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .local _ .vmem, ⟨0, _⟩ => ⟨S1x2048x512, .bf16⟩
  | .local _ .vmem, ⟨1, _⟩ => ⟨S1x2048x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512, .f32⟩
  | .local _ .vmem, ⟨7, _⟩ => ⟨S512, .f32⟩
  | .local _ .vmem, ⟨8, _⟩ => ⟨S1x512x2048, .f32⟩
  | .local _ .vmem, ⟨9, _⟩ => ⟨S1x512x2048, .f32⟩
  | .local _ .vmem, ⟨10, _⟩ => ⟨S1x512x512, .f32⟩
  | .local _ .vmem, ⟨11, _⟩ => ⟨S1x512x512, .f32⟩
  | .local _ .vmem, ⟨12, _⟩ => ⟨S1x1x512, .f32⟩
  | .local _ .vmem, ⟨13, _⟩ => ⟨S1x1x512, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_c_0 : Ref sig .tc := ⟨.hbm, 9, rfl⟩
abbrev main_call1_v0 : Ref sig .tc := ⟨.hbm, 10, rfl⟩
abbrev main_v1 : Ref sig .tc := ⟨.hbm, 11, rfl⟩
abbrev main_c_1 : Ref sig .tc := ⟨.hbm, 12, rfl⟩
abbrev main_call2_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5_0 : Ref sig .tc := ⟨.hbm, 17, rfl⟩
abbrev main_v5_1 : Ref sig .tc := ⟨.hbm, 18, rfl⟩
abbrev main_v5_2 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 18], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  pads_S8921x512_S9216x512_02950_000 : S8921x512.Pads (![0, 0] : Fin 2 → Nat) ![295, 0] ![0, 0] S9216x512
  h_S_ : 0 < S_.numel
  pads_S8921_S9216_02950 : S8921.Pads (![0] : Fin 1 → Nat) ![295] ![0] S9216
  bitsLt_bf16_f32 : FTy.bits .bf16 < FTy.bits .f32
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  reduces_S512x2048_S512 : S512x2048.Reduces [1] S512
  shapeCasts_S512_S512x1 : S512.ShapeCasts S512x1
  broadcasts_S512x1_S512x2048 : S512x1.Broadcasts S512x2048
  reduces_S512x512_S512 : S512x512.Reduces [1] S512
  inb_S512_S512_0 : ∀ a, (![0] : Fin 1 → Nat) a + S512.size a ≤ S512.size a
  h_S512 : 0 < S512.numel
  shapeCasts_S512_S512 : S512.ShapeCasts S512
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  shapeCasts_S8x1x8921_S8x8921 : S8x1x8921.ShapeCasts S8x8921
  bcast_S_S8x8921 : S_.BroadcastsInDim S8x8921 (![] : Fin 0 → Fin S8x8921.rank)
  reducesTo_S8x8921_S_d0_1 : S8x8921.ReducesTo [0, 1] S_
  dot_S512x512_S2048x512_S512x2048_1_1_0_0_n_n_wf : DotDims.WF S512x512 S2048x512 S512x2048 [1] [1] [0] [0] [] []
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x512.size a ≤ S8x2048x512.size a
  hwx0_0 : ∀ i : grid0.Coords, EltTy.bits .bf16 = 32 ∨ (Rect.block (s := S8x2048x512) S1x2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S9216x512.size a
  hwx0_1 : ∀ i : grid0.Coords, EltTy.bits .bf16 = 32 ∨ (Rect.block (s := S9216x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S9216x512.size a
  hwx0_2 : ∀ i : grid0.Coords, EltTy.bits .f32 = 32 ∨ (Rect.block (s := S9216x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512.size a ≤ S9216.size a
  hwx0_3 : ∀ i : grid0.Coords, EltTy.bits .f32 = 32 ∨ (Rect.block (s := S9216) S512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x512x2048.size a < S8x8921x2048.size a
  hwx0_4 : ∀ i : grid0.Coords, EltTy.bits .f32 = 32 ∨ (Rect.unit (s := S8x8921x2048) (fun a => cc0_transform_4 i a * S1x512x2048.size a) (fun a => (Pipeline.Clip.of (cc0_transform_4 i a) (S1x512x2048.size a) (S8x8921x2048.size a)).extent (S1x512x2048.size a)) fun a => Pipeline.Clip.inb (Pipeline.Clip.ok_of (hstart0_4 i a))).WholeWords (EltTy.packing .f32)
  hwxs0_4 : ∀ i : grid0.Coords, EltTy.bits .f32 = 32 ∨ (Rect.unit (s := S1x512x2048) (fun _ => 0) (fun a => (Pipeline.Clip.of (cc0_transform_4 i a) (S1x512x2048.size a) (S8x8921x2048.size a)).extent (S1x512x2048.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x512x512.size a < S8x8921x512.size a
  hwx0_5 : ∀ i : grid0.Coords, EltTy.bits .f32 = 32 ∨ (Rect.unit (s := S8x8921x512) (fun a => cc0_transform_5 i a * S1x512x512.size a) (fun a => (Pipeline.Clip.of (cc0_transform_5 i a) (S1x512x512.size a) (S8x8921x512.size a)).extent (S1x512x512.size a)) fun a => Pipeline.Clip.inb (Pipeline.Clip.ok_of (hstart0_5 i a))).WholeWords (EltTy.packing .f32)
  hwxs0_5 : ∀ i : grid0.Coords, EltTy.bits .f32 = 32 ∨ (Rect.unit (s := S1x512x512) (fun _ => 0) (fun a => (Pipeline.Clip.of (cc0_transform_5 i a) (S1x512x512.size a) (S8x8921x512.size a)).extent (S1x512x512.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1x1x512.size a < S8x1x8921.size a
  hwx0_6 : ∀ i : grid0.Coords, EltTy.bits .f32 = 32 ∨ (Rect.unit (s := S8x1x8921) (fun a => cc0_transform_6 i a * S1x1x512.size a) (fun a => (Pipeline.Clip.of (cc0_transform_6 i a) (S1x1x512.size a) (S8x1x8921.size a)).extent (S1x1x512.size a)) fun a => Pipeline.Clip.inb (Pipeline.Clip.ok_of (hstart0_6 i a))).WholeWords (EltTy.packing .f32)
  hwxs0_6 : ∀ i : grid0.Coords, EltTy.bits .f32 = 32 ∨ (Rect.unit (s := S1x1x512) (fun _ => 0) (fun a => (Pipeline.Clip.of (cc0_transform_6 i a) (S1x1x512.size a) (S8x1x8921.size a)).extent (S1x1x512.size a)) fun a => (Nat.zero_add _).trans_le (Pipeline.Clip.extent_le (Pipeline.Clip.ok_of (hstart0_6 i a)))).WholeWords (EltTy.packing .f32)

variable [Facts₀]

def dot_S512x512_S2048x512_S512x2048_1_1_0_0_n_n : DotDims S512x512 S2048x512 S512x2048 where
  lhsContracting := [1]
  rhsContracting := [1]
  lhsNonContracting := [0]
  rhsNonContracting := [0]
  lhsBatch := []
  rhsBatch := []
  wf := dot_S512x512_S2048x512_S512x2048_1_1_0_0_n_n_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_v3) S1x2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpecClip (Memref.whole main_v5_0) S1x512x2048.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v5_1) S1x512x512.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v5_2) S1x1x512.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x8921 : Shape := ⟨2, ![8, 8921]⟩
abbrev S8x2048 : Shape := ⟨2, ![8, 2048]⟩
abbrev S8921x512 : Shape := ⟨2, ![8921, 512]⟩
abbrev S8921 : Shape := ⟨1, ![8921]⟩
abbrev S8x2048x8921 : Shape := ⟨3, ![8, 2048, 8921]⟩
abbrev S8x8921x2048 : Shape := ⟨3, ![8, 8921, 2048]⟩
abbrev S_ : Shape := ⟨0, ![]⟩
abbrev S8x8921x1 : Shape := ⟨3, ![8, 8921, 1]⟩
abbrev S8x8921x512 : Shape := ⟨3, ![8, 8921, 512]⟩
abbrev S1x8921x512 : Shape := ⟨3, ![1, 8921, 512]⟩
abbrev S1x8921 : Shape := ⟨2, ![1, 8921]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x8921, .f32⟩
  | .hbm, ⟨2, _⟩ => ⟨S8x2048, .i32⟩
  | .hbm, ⟨3, _⟩ => ⟨S8921x512, .f32⟩
  | .hbm, ⟨4, _⟩ => ⟨S8921x512, .f32⟩
  | .hbm, ⟨5, _⟩ => ⟨S8921, .f32⟩
  | .hbm, ⟨6, _⟩ => ⟨S8x2048x8921, .f32⟩
  | .hbm, ⟨7, _⟩ => ⟨S8x8921x2048, .f32⟩
  | .hbm, ⟨8, _⟩ => ⟨S_, .f32⟩
  | .hbm, ⟨9, _⟩ => ⟨S8x8921, .f32⟩
  | .hbm, ⟨10, _⟩ => ⟨S_, .f32⟩
  | .hbm, ⟨11, _⟩ => ⟨S8x8921, .f32⟩
  | .hbm, ⟨12, _⟩ => ⟨S8x8921, .f32⟩
  | .hbm, ⟨13, _⟩ => ⟨S8x8921x1, .f32⟩
  | .hbm, ⟨14, _⟩ => ⟨S8x8921x2048, .f32⟩
  | .hbm, ⟨15, _⟩ => ⟨S8x8921x2048, .f32⟩
  | .hbm, ⟨16, _⟩ => ⟨S8x8921x2048, .f32⟩
  | .hbm, ⟨17, _⟩ => ⟨S_, .f32⟩
  | .hbm, ⟨18, _⟩ => ⟨S8x8921, .f32⟩
  | .hbm, ⟨19, _⟩ => ⟨S8x8921x1, .f32⟩
  | .hbm, ⟨20, _⟩ => ⟨S8x8921x2048, .f32⟩
  | .hbm, ⟨21, _⟩ => ⟨S8x8921x2048, .f32⟩
  | .hbm, ⟨22, _⟩ => ⟨S8x8921x512, .f32⟩
  | .hbm, ⟨23, _⟩ => ⟨S1x8921x512, .f32⟩
  | .hbm, ⟨24, _⟩ => ⟨S8x8921x512, .f32⟩
  | .hbm, ⟨25, _⟩ => ⟨S8x8921x512, .f32⟩
  | .hbm, ⟨26, _⟩ => ⟨S_, .f32⟩
  | .hbm, ⟨27, _⟩ => ⟨S8x8921, .f32⟩
  | .hbm, ⟨28, _⟩ => ⟨S1x8921, .f32⟩
  | .hbm, ⟨29, _⟩ => ⟨S8x8921, .f32⟩
  | .hbm, ⟨30, _⟩ => ⟨S8x8921, .f32⟩
  | .hbm, ⟨31, _⟩ => ⟨S_, .f32⟩
  | .hbm, ⟨32, _⟩ => ⟨S8x8921, .f32⟩
  | .hbm, ⟨33, _⟩ => ⟨S8x8921, .f32⟩
  | .hbm, ⟨34, _⟩ => ⟨S8x8921, .f32⟩
  | .hbm, ⟨35, _⟩ => ⟨S8x8921, .f32⟩
  | .hbm, ⟨36, _⟩ => ⟨S8x8921, .f32⟩
  | .hbm, ⟨37, _⟩ => ⟨S8x8921, .f32⟩
  | .hbm, ⟨38, _⟩ => ⟨S8x8921, .f32⟩
  | .hbm, ⟨39, _⟩ => ⟨S8x8921, .f32⟩
  | .hbm, ⟨40, _⟩ => ⟨S8x8921, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩

abbrev nD : Nat := 1
abbrev τ : Topo := Topo.v7x

variable {F : FTy → Type} [FloatOps F]

class Facts₀ : Prop where
  transposes_S8x2048x8921_S8x8921x2048_0_2_1 : S8x2048x8921.Transposes [0, 2, 1] S8x8921x2048
  reducesTo_S8x8921x2048_S8x8921_d2 : S8x8921x2048.ReducesTo [2] S8x8921
  h_S_ : 0 < S_.numel
  bcast_S_S8x8921 : S_.BroadcastsInDim S8x8921 (![] : Fin 0 → Fin S8x8921.rank)
  bcast_S8x8921_S8x8921x1_0_1 : S8x8921.BroadcastsInDim S8x8921x1 (![0, 1] : Fin 2 → Fin S8x8921x1.rank)
  bcast_S8x8921x1_S8x8921x2048_0_1_2 : S8x8921x1.BroadcastsInDim S8x8921x2048 (![0, 1, 2] : Fin 3 → Fin S8x8921x2048.rank)
  bcast_S8921x512_S1x8921x512_1_2 : S8921x512.BroadcastsInDim S1x8921x512 (![1, 2] : Fin 2 → Fin S1x8921x512.rank)
  bcast_S1x8921x512_S8x8921x512_0_1_2 : S1x8921x512.BroadcastsInDim S8x8921x512 (![0, 1, 2] : Fin 3 → Fin S8x8921x512.rank)
  reducesTo_S8x8921x512_S8x8921_d2 : S8x8921x512.ReducesTo [2] S8x8921
  bcast_S8921_S1x8921_1 : S8921.BroadcastsInDim S1x8921 (![1] : Fin 1 → Fin S1x8921.rank)
  bcast_S1x8921_S8x8921_0_1 : S1x8921.BroadcastsInDim S8x8921 (![0, 1] : Fin 2 → Fin S8x8921.rank)
  reducesTo_S8x8921_S_d0_1 : S8x8921.ReducesTo [0, 1] S_
  dot_S8x2048x512_S8921x512_S8x2048x8921_2_1_01_0_n_n_wf : DotDims.WF S8x2048x512 S8921x512 S8x2048x8921 [2] [1] [0, 1] [0] [] []
  dot_S8x8921x2048_S8x2048x512_S8x8921x512_2_1_1_2_0_0_wf : DotDims.WF S8x8921x2048 S8x2048x512 S8x8921x512 [2] [1] [1] [2] [0] [0]

variable [Facts₀]

def dot_S8x2048x512_S8921x512_S8x2048x8921_2_1_01_0_n_n : DotDims S8x2048x512 S8921x512 S8x2048x8921 where
  lhsContracting := [2]
  rhsContracting := [1]
  lhsNonContracting := [0, 1]
  rhsNonContracting := [0]
  lhsBatch := []
  rhsBatch := []
  wf := dot_S8x2048x512_S8921x512_S8x2048x8921_2_1_01_0_n_n_wf
def dot_S8x8921x2048_S8x2048x512_S8x8921x512_2_1_1_2_0_0 : DotDims S8x8921x2048 S8x2048x512 S8x8921x512 where
  lhsContracting := [2]
  rhsContracting := [1]
  lhsNonContracting := [1]
  rhsNonContracting := [2]
  lhsBatch := [0]
  rhsBatch := [0]
  wf := dot_S8x8921x2048_S8x2048x512_S8x8921x512_2_1_1_2_0_0_wf

class Facts : Prop extends Facts₀ where

variable [Facts]
-- ==== Proof.Blocks.lean ====
/-
  Where each window's block sits in its array.

  The grid has 8 x 18 points (b, k): sequence `b`, label tile `k` (labels 512 k .. 512 k + 511, the last tile cut at label
  8920). At a point the sequence window holds rows [b, :, :] of x; the query, output-row and bias windows hold rows
  512 k .. 512 k + 511 of their (padded) arrays; the three result windows sit at (b, k, 0), (b, k, 0) and (b, 0, k). These
  relations between the printed index maps are decided once over the 144 points; each input block's element is then its
  array's element at the block's offset plus the element's own coordinates.
-/
import proofs.«163239_j84421877170739_2_alg».proof.Proof.Gen.KernelIdeal.Frame
import Idealize.ShloMosaic.Lib.ValueIdx
import Idealize.ShloMosaic.Lib.Pipeline.Value

noncomputable section

namespace Cert.LabelAttention.Blocks

open Cert.KernelIdeal Cert.KernelIdeal.Gen Idealize.ShloMosaic Idealize.ShloMosaic.TcCoe Idealize.SL.Sem Idealize.ShloMosaic.ValueIdx

variable {F : FTy → Type} [FloatOps F]

/-- The printed index maps, decided over the grid: every window's block indices in terms of the weights window's
    (sequence `b` on its first axis, label tile `k` on its second), and the ranges of those two. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 2) = win0_4.index t (1 : Fin 3) ∧ win0_1.index t (1 : Fin 2) = 0
    ∧ win0_2.index t (0 : Fin 2) = win0_4.index t (1 : Fin 3) ∧ win0_2.index t (1 : Fin 2) = 0
    ∧ win0_3.index t (0 : Fin 1) = win0_4.index t (1 : Fin 3)
    ∧ win0_4.index t (2 : Fin 3) = 0
    ∧ win0_5.index t (0 : Fin 3) = win0_4.index t (0 : Fin 3) ∧ win0_5.index t (1 : Fin 3) = win0_4.index t (1 : Fin 3)
    ∧ win0_5.index t (2 : Fin 3) = 0
    ∧ win0_6.index t (0 : Fin 3) = win0_4.index t (0 : Fin 3) ∧ win0_6.index t (1 : Fin 3) = 0
    ∧ win0_6.index t (2 : Fin 3) = win0_4.index t (1 : Fin 3)
    ∧ win0_4.index t (0 : Fin 3) < 8 ∧ win0_4.index t (1 : Fin 3) < 18 :=
  (by decide +kernel : ∀ t : Fin grid0.N, _)

variable (m : (ℓ : Loc nD τ sig) → Buf (Elt F) ℓ)

/-- The sequence block at a point is sequence `b` of the (converted) batch. -/
theorem seq_block (c : Dev nD) (t : Fin cfg0.N) (b : Fin 8) (hb : b.val = win0_4.index t (0 : Fin 3))
    (u : Fin 1) (l : Fin 2048) (d : Fin 512) :
    iblk m c 0 t (ix3 u l d) = V m c main_v3 (ix3 b l d) := by
  obtain ⟨e0, e1, e2, -⟩ := idx_facts t
  show V m c main_v3 (((cfg0.win 0).blk t).view.emb (ix3 u l d)) = V m c main_v3 (ix3 b l d)
  refine congrArg (V m c main_v3) (funext fun a => Fin.ext ?_)
  match a with
  | ⟨0, _⟩ => show win0_0.index t (0 : Fin 3) * 1 + 1 * u.val = b.val; have := u.isLt; omega
  | ⟨1, _⟩ => show win0_0.index t (1 : Fin 3) * 2048 + 1 * l.val = l.val; omega
  | ⟨2, _⟩ => show win0_0.index t (2 : Fin 3) * 512 + 1 * d.val = d.val; omega

/-- Row `p` of the query tile at a point is row `512 k + p` of the (padded, converted) query array. -/
theorem query_block (c : Dev nD) (t : Fin cfg0.N) (p : Fin 512) (y' : Fin 9216)
    (hy : y'.val = win0_4.index t (1 : Fin 3) * 512 + p.val) (d : Fin 512) :
    iblk m c 1 t (ix2 p d) = V m c main_v4 (ix2 y' d) := by
  obtain ⟨-, -, -, e3, e4, -⟩ := idx_facts t
  show V m c main_v4 (((cfg0.win 1).blk t).view.emb (ix2 p d)) = V m c main_v4 (ix2 y' d)
  refine congrArg (V m c main_v4) (funext fun a => Fin.ext ?_)
  match a with
  | ⟨0, _⟩ => show win0_1.index t (0 : Fin 2) * 512 + 1 * p.val = y'.val; omega
  | ⟨1, _⟩ => show win0_1.index t (1 : Fin 2) * 512 + 1 * d.val = d.val; omega

/-- Row `p` of the output-row tile at a point is row `512 k + p` of the (padded) output-row array. -/
theorem outrow_block (c : Dev nD) (t : Fin cfg0.N) (p : Fin 512) (y' : Fin 9216)
    (hy : y'.val = win0_4.index t (1 : Fin 3) * 512 + p.val) (d : Fin 512) :
    iblk m c 2 t (ix2 p d) = V m c main_v1 (ix2 y' d) := by
  obtain ⟨-, -, -, -, -, e5, e6, -⟩ := idx_facts t
  show V m c main_v1 (((cfg0.win 2).blk t).view.emb (ix2 p d)) = V m c main_v1 (ix2 y' d)
  refine congrArg (V m c main_v1) (funext fun a => Fin.ext ?_)
  match a with
  | ⟨0, _⟩ => show win0_2.index t (0 : Fin 2) * 512 + 1 * p.val = y'.val; omega
  | ⟨1, _⟩ => show win0_2.index t (1 : Fin 2) * 512 + 1 * d.val = d.val; omega

/-- Entry `p` of the bias tile at a point is entry `512 k + p` of the (padded) bias array. -/
theorem bias_block (c : Dev nD) (t : Fin cfg0.N) (p : Fin 512) (y' : Fin 9216)
    (hy : y'.val = win0_4.index t (1 : Fin 3) * 512 + p.val) :
    iblk m c 3 t (ix1 p) = V m c main_v2 (ix1 y') := by
  obtain ⟨-, -, -, -, -, -, -, e7, -⟩ := idx_facts t
  show V m c main_v2 (((cfg0.win 3).blk t).view.emb (ix1 p)) = V m c main_v2 (ix1 y')
  refine congrArg (V m c main_v2) (funext fun a => Fin.ext ?_)
  match a with
  | ⟨0, _⟩ => show win0_3.index t (0 : Fin 1) * 512 + 1 * p.val = y'.val; omega

end Cert.LabelAttention.Blocks

end
-- ==== Proof.Entry.lean ====
/-
  What the region finds in the arrays it stages.

  Before the kernel is launched the host converts x to the matmul's operand format (the identity on the extended reals), pads
  the query rows, the output rows and the biases from 8921 to 9216 = 18 * 512 labels with zeros, and converts the padded query
  rows likewise. So the staged sequence array is x, and row y' of a staged padded array, for y' below 8921, is row y' of the
  argument: a padded array read inside its operand is the operand.
-/
import proofs.«163239_j84421877170739_2_alg».proof.Proof.Gen.KernelIdeal.Frame
import Idealize.ShloMosaic.Lib.StableHlo.Run
import Idealize.ShloMosaic.Lib.KernelVsHost
import Idealize.ShloMosaic.Lib.ValueIdx
import Idealize.ShloMosaic.PureOps.Ideal.Laws

noncomputable section

namespace Cert.LabelAttention.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The staged sequence array is the argument x. -/
theorem seq_entry (c : Dev nD) :
    (V m c main_v3 : S8x2048x512.Idx → EReal) = m ((c : Thread nD τ).loc main_arg0) := by
  dsimp only [Gen.V, Gen.V0]
  simp only [hostOps0, hostOps0_1, hostOps0_2, hostOps0_3, hostOps0_4, hostOps0_5, hostOps0_6, List.flatten_cons,
    List.flatten_nil, List.append_nil, List.cons_append, List.nil_append]
  after_results
  rfl

/-- The staged query array: the argument's rows, padded with the converted integer zero, then converted. -/
theorem query_array (c : Dev nD) :
    (V m c main_v4 : S9216x512.Idx → EReal)
      = pad S9216x512 ![0, 0] ![295, 0] ![0, 0] (m ((c : Thread nD τ).loc main_arg3) : S8921x512.Idx → EReal)
          (sitofp (F := Ideal) .f32 (constantI S_ 32 0#32) : S_.Idx → EReal) pads_S8921x512_S9216x512_02950_000 h_S_ := by
  dsimp only [Gen.V, Gen.V0]
  simp only [hostOps0, hostOps0_1, hostOps0_2, hostOps0_3, hostOps0_4, hostOps0_5, hostOps0_6, List.flatten_cons,
    List.flatten_nil, List.append_nil, List.cons_append, List.nil_append]
  after_results
  rfl

/-- The staged output-row array: the argument's rows, padded. -/
theorem outrow_array (c : Dev nD) :
    (V m c main_v1 : S9216x512.Idx → EReal)
      = pad S9216x512 ![0, 0] ![295, 0] ![0, 0] (m ((c : Thread nD τ).loc main_arg4) : S8921x512.Idx → EReal)
          (sitofp (F := Ideal) .f32 (constantI S_ 32 0#32) : S_.Idx → EReal) pads_S8921x512_S9216x512_02950_000 h_S_ := by
  dsimp only [Gen.V, Gen.V0]
  simp only [hostOps0, hostOps0_1, hostOps0_2, hostOps0_3, hostOps0_4, hostOps0_5, hostOps0_6, List.flatten_cons,
    List.flatten_nil, List.append_nil, List.cons_append, List.nil_append]
  after_results
  rfl

/-- The staged bias array: the argument's entries, padded. -/
theorem bias_array (c : Dev nD) :
    (V m c main_v2 : S9216.Idx → EReal)
      = pad S9216 ![0] ![295] ![0] (m ((c : Thread nD τ).loc main_arg5) : S8921.Idx → EReal)
          (sitofp (F := Ideal) .f32 (constantI S_ 32 0#32) : S_.Idx → EReal) pads_S8921_S9216_02950 h_S_ := by
  dsimp only [Gen.V, Gen.V0]
  simp only [hostOps0, hostOps0_1, hostOps0_2, hostOps0_3, hostOps0_4, hostOps0_5, hostOps0_6, List.flatten_cons,
    List.flatten_nil, List.append_nil, List.cons_append, List.nil_append]
  after_results
  rfl

/-- Below label 8921 a staged query row is the argument's row. -/
theorem query_entry (c : Dev nD) (y : Fin 8921) (y' : Fin 9216) (h : y'.val = y.val) (d : Fin 512) :
    (V m c main_v4 : S9216x512.Idx → EReal) (ix2 y' d) = m ((c : Thread nD τ).loc main_arg3) (ix2 y d) := by
  rw [query_array]
  exact pad_apply_of_inside _ _ _ _ _ pads_S8921x512_S9216x512_02950_000 h_S_ (ix2 y' d) (ix2 y d) (fun a => by
    match a with
    | ⟨0, _⟩ => show y'.val = 0 + y.val * (0 + 1); omega
    | ⟨1, _⟩ => show d.val = 0 + d.val * (0 + 1); omega)

/-- Below label 8921 a staged output row is the argument's row. -/
theorem outrow_entry (c : Dev nD) (y : Fin 8921) (y' : Fin 9216) (h : y'.val = y.val) (d : Fin 512) :
    (V m c main_v1 : S9216x512.Idx → EReal) (ix2 y' d) = m ((c : Thread nD τ).loc main_arg4) (ix2 y d) := by
  rw [outrow_array]
  exact pad_apply_of_inside _ _ _ _ _ pads_S8921x512_S9216x512_02950_000 h_S_ (ix2 y' d) (ix2 y d) (fun a => by
    match a with
    | ⟨0, _⟩ => show y'.val = 0 + y.val * (0 + 1); omega
    | ⟨1, _⟩ => show d.val = 0 + d.val * (0 + 1); omega)

/-- Below label 8921 a staged bias is the argument's bias. -/
theorem bias_entry (c : Dev nD) (y : Fin 8921) (y' : Fin 9216) (h : y'.val = y.val) :
    (V m c main_v2 : S9216.Idx → EReal) (ix1 y') = m ((c : Thread nD τ).loc main_arg5) (ix1 y) := by
  rw [bias_array]
  exact pad_apply_of_inside _ _ _ _ _ pads_S8921_S9216_02950 h_S_ (ix1 y') (ix1 y) (fun a => by
    match a with
    | ⟨0, _⟩ => show y'.val = 0 + y.val * (0 + 1); omega)

end Cert.LabelAttention.Entry

end
-- ==== Proof.LibColumnOps.lean ====
/-
  Two readings at an index given by coordinates, over generic extents.

  A column `[a, 1]` stretched over `[a, b]` (a row statistic kept as a column and broadcast back over the row) reads, at
  `(p, c)`, the column at `(p, 0)`.

  A reduction along ONE axis of an f32 array, as a kernel body prints it — the accumulator's word written out and the proof
  that it is the operation's neutral word an equation between two literals —: the maximum from the word of `-∞` is the
  fold of `max` from `⊥` over that axis's coordinates (`rowMax_single`), the sum from the zero word is the sum over them
  (`rowSum_single`).

  A matrix product `[K, M] × [K, N] → [M, N]` whose dimension numbers contract the FIRST axis of both operands and keep
  the other two in order (`ColDot`): the sum over the contraction index at output `(p, n)` is
  `∑ k : Fin K, x (k, p) · w (k, n)` (`sum_contr_col_eq`), and so is the product into a zero accumulator read at `(p, n)`
  (`matmul_zero_col_apply`). Only the commutative monoid of the extended reals' addition is used.
-/
import Idealize.ShloMosaic.Lib.ValueIdx
import Idealize.ShloMosaic.Lib.Pipeline.Value
import Idealize.ShloMosaic.PureOps.Ideal.Laws

noncomputable section

namespace Idealize.ShloMosaic.ColumnOps

open Idealize.ShloMosaic Idealize.ShloMosaic.ValueIdx

/-- A column `[a, 1]` broadcast to `[a, b]` reads, at `(p, c)`, the column at `(p, 0)`. -/
theorem broadcastTo_col_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A printed `multi_reduction <maximumf>` over one axis from the word of `-∞`, at a result index: the fold of `max` from `⊥`
    of the source along that axis. -/
theorem rowMax_single {s t : Shape} {a : Fin s.rank} (src : FVec Ideal s .f32) (h : s.Reduces [a] t) (hφ : FKind.Formats .f32)
    (hacc : (0xFF800000#32 : BitVec 32) = 0xFF800000#32) (j : t.Idx) :
    multiReduction .maximumf [a] t src 0xFF800000#32 h hφ hacc j
      = (Finset.univ : Finset (Fin (s.size a))).fold max ⊥ (src ∘ h.lift j) := by
  refine (Ideal.multiReduction_maximumf_single src 0xFF800000#32 h hφ hacc j).trans ?_
  show (Finset.univ : Finset (Fin (s.size a))).fold max (Ideal.ofBits .f32 0xFF800000#32) _ = _
  rw [show Ideal.ofBits .f32 0xFF800000#32 = (⊥ : EReal) by simp [Ideal.ofBits, Ideal.ieee]]

/-- A printed `multi_reduction <add>` over one axis from the zero word, at a result index: the sum of the source along
    that axis. -/
theorem rowSum_single {s t : Shape} {a : Fin s.rank} (src : FVec Ideal s .f32) (h : s.Reduces [a] t) (hφ : FKind.Formats .f32)
    (hacc : (0x00000000#32 : BitVec 32) = 0x00000000#32) (j : t.Idx) :
    multiReduction .add [a] t src 0x00000000#32 h hφ hacc j = ∑ k : Fin (s.size a), src (h.lift j k) :=
  Ideal.multiReduction_add_single src 0x00000000#32 h hφ hacc j

/-- The dimension numbers of a product contracting the first axis of both operands: one contracted axis of extent `K`;
    the left operand's index at output `j` and contraction index `q` is `(q, j 0)`, the right operand's `(q, j 1)`. -/
structure ColDot {K M N : Nat} (d : DotDims (⟨2, ![K, M]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (q ⟨0, by omega⟩).val
  l1 : ∀ (j : (⟨2, ![M, N]⟩ : Shape).Idx) (q : d.contr.Idx), (d.lhsIdx j q 1).val = (j 0).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {K M N : Nat}

/-- The contraction's sum at output `j` is the sum over `k : Fin K` of `x (k, j 0) · w (k, j 1)`. -/
theorem sum_contr_col_eq (d : DotDims (⟨2, ![K, M]⟩ : Shape) (⟨2, ![K, N]⟩ : Shape) (⟨2, ![M, N]⟩ : Shape)) (h : ColDot d)
    (x : (⟨2, ![K, M]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 k (j 0)) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 k (j 0) := funext fun a => Fin.ext (by
    match a with
    | ⟨0, _⟩ => exact (h.l0 _ _).trans hk
    | ⟨1, _⟩ => exact h.l1 _ _)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_col_apply {φ₁ φ₂ : FTy}
    (d : DotDims (⟨2, ![K, M]⟩ : Shape) (⟨2, ![K, N]⟩ : Shape) (⟨2, ![M, N]⟩ : Shape)) (hd : ColDot d)
    (prec : Option ContractPrecision) (lhs : FVec Ideal ⟨2, ![K, M]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 k p) * rhs (ix2 k n) :=
  (Ideal.matmul_constant_zero_apply d prec lhs rhs (ix2 p n)).trans (sum_contr_col_eq d hd lhs rhs (ix2 p n))

end Idealize.ShloMosaic.ColumnOps

end
-- ==== Proof.LibRowNormalize.lean ====
/-
  THE ROWS OF A MATRIX DIVIDED BY THEIR CLAMPED LENGTHS, READ AT AN INDEX, over generic extents.

  A body that L2-normalises the rows of an [a, d] matrix X writes: the squares X * X, their sum along the second axis (a
  vector of a sums), that vector cast to a column [a, 1], its square root, the maximum with a splat constant eps (so that a
  zero row is not divided by zero), the column stretched back over [a, d], and the quotient of X by it. Read at the
  extended reals at (i, k) this is

      X (i, k) / max (sqrt (sum over j of X (i, j) * X (i, j))) eps

  where the sum has no rounding and no order, the square root and the quotient are the extended reals' ones, and eps is
  the extended real the constant's word denotes. Each layout step is read at an index written by its coordinates: the sum
  along the second axis at i is the sum over the row i; a vector cast to a column reads its entry; a column stretched over
  the matrix reads the column's entry of that row.
-/
import Idealize.ShloMosaic.Lib.ValueIdx
import Idealize.ShloMosaic.Lib.Pipeline.Value
import Idealize.ShloMosaic.PureOps.Ideal.Laws

noncomputable section

open scoped BigOperators

namespace Idealize.ShloMosaic.RowNormalize

open Idealize.ShloMosaic Idealize.ShloMosaic.ValueIdx

section Layout
variable {α : Type}

/-- A column [a, 1] stretched over [a, b] by a vector broadcast reads, at (i, j), the column at (i, 0). -/
theorem broadcastTo_col_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector [a] cast to the column [a, 1] reads, at (i, u), the vector at i, whatever the unit coordinate u. -/
theorem shapeCast_vec_col_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- For a sum along the second axis of [a, d], the source index over the result index i with coordinate k on the summed
    axis is (i, k). -/
theorem lift_row {a d : ℕ} (h : (⟨2, ![a, d]⟩ : Shape).Reduces [1] ⟨1, ![a]⟩) (i : Fin a) (k : Fin d) :
    h.lift (ix1 i) k = ix2 i k := by
  funext c
  apply Fin.ext
  show Shape.Reduces.liftVal h (ix1 i) k.val c = (ix2 i k c).val
  unfold Shape.Reduces.liftVal
  match c with
  | ⟨0, _⟩ => rfl
  | ⟨1, _⟩ => rfl

end Layout

/-! ## The sum of a row's squares, and the row divided by its clamped length -/

section Rows
variable {a d : ℕ}

/-- The sum along the second axis of a matrix, read at i at the extended reals: the sum over the row i. -/
theorem rowSum_apply (Y : FVec Ideal ⟨2, ![a, d]⟩ .f32) (h : (⟨2, ![a, d]⟩ : Shape).Reduces [1] ⟨1, ![a]⟩)
    (hφ : FKind.Formats .f32) (hacc : (0x00000000#32 : BitVec 32) = FKind.add.neutral .f32 hφ) (i : Fin a) :
    multiReduction .add [1] ⟨1, ![a]⟩ Y 0x00000000#32 h hφ hacc (ix1 i) = ∑ k : Fin d, Y (ix2 i k) :=
  (Ideal.multiReduction_add_single Y 0x00000000#32 h hφ hacc (ix1 i)).trans
    (Finset.sum_congr rfl fun k _ => congrArg Y (lift_row h i k))

/-- The rows of X divided by their clamped lengths, as a body spells it with vector operations: the squares, their sum
    along the second axis, the cast to a column, the square root, the maximum with the splat of the word e, the column
    stretched over the matrix, the quotient. -/
def normalizeRows (X : FVec Ideal ⟨2, ![a, d]⟩ .f32) (e : BitVec 32)
    (hr : (⟨2, ![a, d]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, d]⟩) :
    FVec Ideal ⟨2, ![a, d]⟩ .f32 :=
  divf X (broadcastTo ⟨2, ![a, d]⟩
    (maximumf (sqrt (shapeCast ⟨2, ![a, 1]⟩ (multiReduction .add [1] ⟨1, ![a]⟩ (mulf X X) 0x00000000#32 hr hφ hacc) hc))
      (broadcast ⟨2, ![a, 1]⟩ (Scalar.ofBits (F := Ideal) .f32 e))) hb)

/-- Read at (i, k): the entry over the larger of the square root of the sum of the row's squares and the extended real
    the word e denotes. -/
theorem normalizeRows_apply (X : FVec Ideal ⟨2, ![a, d]⟩ .f32) (e : BitVec 32)
    (hr : (⟨2, ![a, d]⟩ : Shape).Reduces [1] ⟨1, ![a]⟩) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, d]⟩)
    (i : Fin a) (k : Fin d) :
    normalizeRows X e hr hφ hacc hc hb (ix2 i k)
      = Ideal.div (X (ix2 i k)) (max (Ideal.sqrt (∑ j : Fin d, X (ix2 i j) * X (ix2 i j))) (Ideal.ofBits .f32 e)) := by
  unfold normalizeRows
  refine (divf_apply _ _ _).trans ?_
  refine congrArg (Ideal.div (X (ix2 i k))) ?_
  refine (broadcastTo_col_apply _ hb i k).trans ?_
  refine (maximumf_apply _ _ _).trans ?_
  refine congrArg (max · (Ideal.ofBits .f32 e)) ?_
  show Ideal.sqrt (shapeCast ⟨2, ![a, 1]⟩ (multiReduction .add [1] ⟨1, ![a]⟩ (mulf X X) 0x00000000#32 hr hφ hacc) hc
    (ix2 i (0 : Fin 1))) = _
  refine congrArg Ideal.sqrt ?_
  refine (shapeCast_vec_col_apply _ hc i 0).trans ?_
  exact rowSum_apply (mulf X X) hr hφ hacc i

end Rows

end Idealize.ShloMosaic.RowNormalize

end
-- ==== Proof.LibRowSoftmax.lean ====
/-
  THE SOFTMAX OF THE ROWS OF A MATRIX, AS A KERNEL BODY SPELLS IT, READ AT AN INDEX, over generic extents.

  For a row of scores s the softmax taken against the row's peak is, at j,

      exp (s j - M) / (sum over j' of exp (s j' - M)),   M = the largest entry of the row (the fold of max from -infinity).

  A body that takes it over the rows of an [a, n] matrix S writes: the maximum of S along the second axis from the word of
  -infinity (a vector of a maxima), that vector cast to a column [a, 1] and stretched back over [a, n]; the difference of S
  and it; the exponential; the sum of that along the second axis from the zero word, cast to a column and stretched back
  likewise; and the quotient of the exponentials by the stretched sums. Read at the extended reals at (i, j) this is the
  softmax of the row i of S at j: the maximum and the sum have no rounding and no order, the exponential and the quotient are
  the extended reals' ones. Each step is read at an index written by its coordinates: a reduction along the second axis at
  i ranges over the row i, a vector cast to a column reads its entry, a column stretched over the matrix reads the column's
  entry of that row.
-/
import Idealize.ShloMosaic.Lib.ValueIdx
import Idealize.ShloMosaic.Lib.Pipeline.Value
import Idealize.ShloMosaic.PureOps.Ideal.Laws
import proofs.«163239_j84421877170739_2_alg».proof.Proof.LibColumnOps
import proofs.«163239_j84421877170739_2_alg».proof.Proof.LibRowNormalize

noncomputable section

open scoped BigOperators

namespace Idealize.ShloMosaic.RowSoftmax

open Idealize.ShloMosaic Idealize.ShloMosaic.ValueIdx

/-- The largest entry of a row: the fold of max from -infinity. -/
def peak {n : ℕ} (s : Fin n → EReal) : EReal := (Finset.univ : Finset (Fin n)).fold max ⊥ s

/-- The softmax of a row of scores at j, taken against the row's peak. -/
def softmax {n : ℕ} (s : Fin n → EReal) (j : Fin n) : EReal :=
  Ideal.div (Ideal.exp (s j - peak s)) (∑ j' : Fin n, Ideal.exp (s j' - peak s))

variable {a n : ℕ}

/-- The rows' maxima from the word of -infinity, kept as a column and stretched back over the matrix. -/
def peakRows (S : FVec Ideal ⟨2, ![a, n]⟩ .f32) (hr : (⟨2, ![a, n]⟩ : Shape).Reduces [1] ⟨1, ![a]⟩) (hφ : FKind.Formats .f32)
    (hmax : (0xFF800000#32 : BitVec 32) = 0xFF800000#32) (hc : (⟨1, ![a]⟩ : Shape).ShapeCasts ⟨2, ![a, 1]⟩)
    (hb : (⟨2, ![a, 1]⟩ : Shape).Broadcasts ⟨2, ![a, n]⟩) : FVec Ideal ⟨2, ![a, n]⟩ .f32 :=
  broadcastTo ⟨2, ![a, n]⟩ (shapeCast ⟨2, ![a, 1]⟩ (multiReduction .maximumf [1] ⟨1, ![a]⟩ S 0xFF800000#32 hr hφ hmax) hc) hb

/-- Read at (i, j): the peak of the row i. -/
theorem peakRows_apply (S : FVec Ideal ⟨2, ![a, n]⟩ .f32) (hr : (⟨2, ![a, n]⟩ : Shape).Reduces [1] ⟨1, ![a]⟩)
    (hφ : FKind.Formats .f32) (hmax : (0xFF800000#32 : BitVec 32) = 0xFF800000#32)
    (hc : (⟨1, ![a]⟩ : Shape).ShapeCasts ⟨2, ![a, 1]⟩) (hb : (⟨2, ![a, 1]⟩ : Shape).Broadcasts ⟨2, ![a, n]⟩)
    (i : Fin a) (j : Fin n) :
    peakRows S hr hφ hmax hc hb (ix2 i j) = peak fun j' : Fin n => S (ix2 i j') := by
  unfold peakRows
  refine (ColumnOps.broadcastTo_col_apply _ hb i j).trans ?_
  refine (RowNormalize.shapeCast_vec_col_apply _ hc i 0).trans ?_
  refine (ColumnOps.rowMax_single S hr hφ hmax (ix1 i)).trans ?_
  show (Finset.univ : Finset (Fin n)).fold max ⊥ (S ∘ hr.lift (ix1 i)) = _
  unfold peak
  exact congrArg (fun f => Finset.fold max ⊥ f (Finset.univ : Finset (Fin n)))
    (funext fun k => congrArg S (RowNormalize.lift_row hr i k))

/-- The rows' sums from the zero word, kept as a column and stretched back over the matrix. -/
def sumRows (E : FVec Ideal ⟨2, ![a, n]⟩ .f32) (hr : (⟨2, ![a, n]⟩ : Shape).Reduces [1] ⟨1, ![a]⟩) (hφ : FKind.Formats .f32)
    (hadd : (0x00000000#32 : BitVec 32) = 0x00000000#32) (hc : (⟨1, ![a]⟩ : Shape).ShapeCasts ⟨2, ![a, 1]⟩)
    (hb : (⟨2, ![a, 1]⟩ : Shape).Broadcasts ⟨2, ![a, n]⟩) : FVec Ideal ⟨2, ![a, n]⟩ .f32 :=
  broadcastTo ⟨2, ![a, n]⟩ (shapeCast ⟨2, ![a, 1]⟩ (multiReduction .add [1] ⟨1, ![a]⟩ E 0x00000000#32 hr hφ hadd) hc) hb

/-- Read at (i, j): the sum over the row i. -/
theorem sumRows_apply (E : FVec Ideal ⟨2, ![a, n]⟩ .f32) (hr : (⟨2, ![a, n]⟩ : Shape).Reduces [1] ⟨1, ![a]⟩)
    (hφ : FKind.Formats .f32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (i : Fin a) (j : Fin n) :
    sumRows E hr hφ hadd hc hb (ix2 i j) = ∑ j' : Fin n, E (ix2 i j') := by
  unfold sumRows
  refine (ColumnOps.broadcastTo_col_apply _ hb i j).trans ?_
  refine (RowNormalize.shapeCast_vec_col_apply _ hc i 0).trans ?_
  refine (ColumnOps.rowSum_single E hr hφ hadd (ix1 i)).trans ?_
  exact Finset.sum_congr rfl fun k _ => congrArg E (RowNormalize.lift_row hr i k)

/-- The exponentials of the rows' scores against their peaks. -/
def expRows (S : FVec Ideal ⟨2, ![a, n]⟩ .f32) (hr : (⟨2, ![a, n]⟩ : Shape).Reduces [1] ⟨1, ![a]⟩) (hφ : FKind.Formats .f32)
    (hmax : (0xFF800000#32 : BitVec 32) = 0xFF800000#32) (hc : (⟨1, ![a]⟩ : Shape).ShapeCasts ⟨2, ![a, 1]⟩)
    (hb : (⟨2, ![a, 1]⟩ : Shape).Broadcasts ⟨2, ![a, n]⟩) : FVec Ideal ⟨2, ![a, n]⟩ .f32 :=
  exp (subf S (peakRows S hr hφ hmax hc hb))

/-- Read at (i, j): the exponential of the score less the row's peak. -/
theorem expRows_apply (S : FVec Ideal ⟨2, ![a, n]⟩ .f32) (hr : (⟨2, ![a, n]⟩ : Shape).Reduces [1] ⟨1, ![a]⟩)
    (hφ : FKind.Formats .f32) (hmax : (0xFF800000#32 : BitVec 32) = 0xFF800000#32)
    (hc : (⟨1, ![a]⟩ : Shape).ShapeCasts ⟨2, ![a, 1]⟩) (hb : (⟨2, ![a, 1]⟩ : Shape).Broadcasts ⟨2, ![a, n]⟩)
    (i : Fin a) (j : Fin n) :
    expRows S hr hφ hmax hc hb (ix2 i j) = Ideal.exp (S (ix2 i j) - peak fun j' : Fin n => S (ix2 i j')) := by
  show Ideal.exp (S (ix2 i j) - peakRows S hr hφ hmax hc hb (ix2 i j)) = _
  rw [peakRows_apply]

/-- The softmax of the rows as a body spells it with vector operations: the exponentials against the stretched peaks over
    their stretched row sums. -/
def softmaxRows (S : FVec Ideal ⟨2, ![a, n]⟩ .f32) (hr : (⟨2, ![a, n]⟩ : Shape).Reduces [1] ⟨1, ![a]⟩) (hφ : FKind.Formats .f32)
    (hmax : (0xFF800000#32 : BitVec 32) = 0xFF800000#32) (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩) :
    FVec Ideal ⟨2, ![a, n]⟩ .f32 :=
  divf (expRows S hr hφ hmax hc hb) (sumRows (expRows S hr hφ hmax hc hb) hr hφ hadd hc hb)

/-- Read at (i, j): the softmax of the row i at j. -/
theorem softmaxRows_apply (S : FVec Ideal ⟨2, ![a, n]⟩ .f32) (hr : (⟨2, ![a, n]⟩ : Shape).Reduces [1] ⟨1, ![a]⟩)
    (hφ : FKind.Formats .f32) (hmax : (0xFF800000#32 : BitVec 32) = 0xFF800000#32)
    (hadd : (0x00000000#32 : BitVec 32) = 0x00000000#32)
    (hc : (⟨1, ![a]⟩ : Shape).ShapeCasts ⟨2, ![a, 1]⟩) (hb : (⟨2, ![a, 1]⟩ : Shape).Broadcasts ⟨2, ![a, n]⟩)
    (i : Fin a) (j : Fin n) :
    softmaxRows S hr hφ hmax hadd hc hb (ix2 i j) = softmax (fun j' : Fin n => S (ix2 i j')) j := by
  show Ideal.div (expRows S hr hφ hmax hc hb (ix2 i j)) (sumRows (expRows S hr hφ hmax hc hb) hr hφ hadd hc hb (ix2 i j)) = _
  rw [expRows_apply, sumRows_apply]
  unfold softmax
  exact congrArg (Ideal.div _) (Finset.sum_congr rfl fun j' _ => expRows_apply S hr hφ hmax hc hb i j')

end Idealize.ShloMosaic.RowSoftmax

end
-- ==== Proof.LibTransDot.lean ====
/-
  A matrix product against a transposed right operand.

  For a two-axis contraction `[M, K] × [N, K] → [M, N]` whose dimension numbers contract the second axis of both
  operands and keep the other two in order (`TransDot`), the sum over the contraction index at output `(r, c)` is
  `∑ k : Fin K, x (r, k) · w (c, k)` (`sum_contr_trans_eq`), and so is the product into a zero accumulator read at
  `(r, c)` (`matmul_zero_trans_apply`). Only the commutative monoid of the extended reals' addition is used.
-/
import Idealize.ShloMosaic.Lib.ValueIdx
import Idealize.ShloMosaic.PureOps.Ideal.Laws

noncomputable section

namespace Idealize.ShloMosaic.TransDot

open Idealize.ShloMosaic Idealize.ShloMosaic.ValueIdx

/-- The dimension numbers of a product with a transposed right operand: one contracted axis of extent `K`; the left
    operand's index at output `j` and contraction index `q` is `(j 0, q)`, the right operand's `(j 1, q)`. -/
structure TransDot {M K N : Nat} (d : DotDims (⟨2, ![M, K]⟩ : Shape) (⟨2, ![N, K]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (j 1).val
  r1 : ∀ (j : (⟨2, ![M, N]⟩ : Shape).Idx) (q : d.contr.Idx), (d.rhsIdx j q 1).val = (q ⟨0, by omega⟩).val

variable {M K N : Nat}

/-- The contraction's sum at output `j` is the sum over `k : Fin K` of `x (j 0, k) · w (j 1, k)`. -/
theorem sum_contr_trans_eq (d : DotDims (⟨2, ![M, K]⟩ : Shape) (⟨2, ![N, K]⟩ : Shape) (⟨2, ![M, N]⟩ : Shape)) (h : TransDot d)
    (x : (⟨2, ![M, K]⟩ : Shape).Idx → EReal) (w : (⟨2, ![N, K]⟩ : Shape).Idx → EReal) (j : (⟨2, ![M, N]⟩ : Shape).Idx) :
    ∑ q : d.contr.Idx, x (d.lhsIdx j q) * w (d.rhsIdx j q) = ∑ k : Fin K, x (ix2 (j 0) k) * w (ix2 (j 1) k) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 (j 1) k := funext fun a => Fin.ext (by
    match a with
    | ⟨0, _⟩ => exact h.r0 _ _
    | ⟨1, _⟩ => exact (h.r1 _ _).trans hk)
  exact congrArg₂ (· * ·) (congrArg x el) (congrArg w er)

/-- The product into the zero accumulator, read at `(p, c)`. -/
theorem matmul_zero_trans_apply {φ₁ φ₂ : FTy}
    (d : DotDims (⟨2, ![M, K]⟩ : Shape) (⟨2, ![N, K]⟩ : Shape) (⟨2, ![M, N]⟩ : Shape)) (hd : TransDot d)
    (prec : Option ContractPrecision) (lhs : FVec Ideal ⟨2, ![M, K]⟩ φ₁) (rhs : FVec Ideal ⟨2, ![N, K]⟩ φ₂) (p : Fin M) (c : Fin N) :
    matmul d prec lhs rhs (constant ⟨2, ![M, N]⟩ .f32 0x00000000#32) (ix2 p c) = ∑ k : Fin K, lhs (ix2 p k) * rhs (ix2 c k) :=
  (Ideal.matmul_constant_zero_apply d prec lhs rhs (ix2 p c)).trans (sum_contr_trans_eq d hd lhs rhs (ix2 p c))

end Idealize.ShloMosaic.TransDot

end
-- ==== Proof.LibTileRead.lean ====
/-
  Readings at an index given by coordinates that a tile of pairwise quantities meets, over generic extents `a`, `b`.

  * A transposed matrix `[a, b] → [b, a]` reads at `(q, p)` the matrix at `(p, q)` (`transpose_swap_apply`).
  * A row `[1, b]` stretched over `[a, b]` reads at `(p, q)` the row at `(0, q)` (`broadcastTo_row_apply`).
  * A column `[a, 1]` recast as a vector `[a]`, a vector `[b]` recast as a row `[1, b]`, and a row `[1, b]` recast
    as `[1, 1, b]`, each read where the row-major position says (`shapeCast_uncolumn_apply`, `shapeCast_row_apply`,
    `shapeCast_row3_apply`).
  * The minimum of an `[a, b]` array of extended reals along its second axis, from the word of `+∞`, reads at `p` the
    infimum over `q` of the entries `(p, q)` (`rowMin_apply`); along its first axis it reads at `q` the infimum over
    `p` (`colMin_apply`): a fold of `min` from the top element over a whole finite type is the infimum.
  * The host's minimum-reduction of an `[a, b]` array along its first axis, from a scalar holding the word of `+∞`,
    likewise (`hostColMin_apply`).
  * A plain matrix product `[M, K] × [K, N] → [M, N]` (`PlainDot`: the left operand's second axis contracted with the
    right operand's first) into the zero accumulator reads at `(p, n)` the sum over `k` of `x (p, k) · w (k, n)`
    (`matmul_zero_plain_apply`).
-/
import Idealize.ShloMosaic.Lib.ValueIdx
import Idealize.ShloMosaic.Lib.Pipeline.Value
import Idealize.ShloMosaic.PureOps.Ideal.Laws

noncomputable section

namespace Cert.Lib.TileRead

open Idealize.ShloMosaic Idealize.ShloMosaic.ValueIdx

/-- The word of `+∞` is the top element of the extended reals. -/
theorem inf_word : Ideal.ofBits .f32 0x7F800000#32 = (⊤ : EReal) := by simp [Ideal.ofBits, Ideal.ieee]

/-- The fold of `min` from `⊤` over a whole finite type is the infimum of the family. -/
theorem fold_min_top {ι : Type*} [Fintype ι] (f : ι → EReal) : (Finset.univ : Finset ι).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-! ## Layout -/

/-- A matrix transposed reads at `(q, p)` the matrix at `(p, q)`. -/
theorem transpose_swap_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun bx => by
    match bx with
    | ⟨0, _⟩ => rfl
    | ⟨1, _⟩ => rfl

/-- A row `[1, b]` broadcast to `[a, b]` reads, at `(p, q)`, the row at `(0, q)`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An `[a, 1]` column cast to `[a]` reads, at `p`, the column at `(p, 0)`. -/
theorem shapeCast_uncolumn_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A `[b]` vector cast to a `[1, b]` row reads, at `(0, q)`, the vector at `q`. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A `[1, b]` row cast to `[1, 1, b]` reads, at `(0, 0, q)`, the row at `(0, q)`. -/
theorem shapeCast_row3_apply {α : Type} {b : ℕ} (x : (⟨2, ![1, b]⟩ : Shape).Idx → α)
    (h : (⟨2, ![1, b]⟩ : Shape).ShapeCasts ⟨3, ![1, 1, b]⟩) (u v : Fin 1) (q : Fin b) :
    shapeCast ⟨3, ![1, 1, b]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show 0 * b + q.val = (u.val * 1 + v.val) * b + q.val
    rw [hu, hv])

/-! ## Minima along one axis of a matrix -/

/-- The minimum along the second axis, from the word of `+∞`, at `p`: the infimum of row `p`. -/
theorem rowMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ v 0x7F800000#32 h hφ hacc (ix1 p) = ⨅ q : Fin b, v (ix2 p q) := by
  refine (multiReduction_minimumf_eq_fold v _ h hφ hacc (ix1 p)).trans ?_
  refine (h.fold_filter_drop_single FloatOps.minimumf _ v (ix1 p)).trans ?_
  show Finset.fold min (Ideal.ofBits .f32 0x7F800000#32) (fun q : Fin b => v (h.lift (ix1 p) q)) Finset.univ = _
  rw [inf_word, fold_min_top]
  exact iInf_congr fun q => congrArg v (funext fun d => Fin.ext (by
    match d with
    | ⟨0, _⟩ => rfl
    | ⟨1, _⟩ => rfl))

/-- The minimum along the first axis, from the word of `+∞`, at `q`: the infimum of column `q`. -/
theorem colMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ v 0x7F800000#32 h hφ hacc (ix1 q) = ⨅ p : Fin a, v (ix2 p q) := by
  refine (multiReduction_minimumf_eq_fold v _ h hφ hacc (ix1 q)).trans ?_
  refine (h.fold_filter_drop_single FloatOps.minimumf _ v (ix1 q)).trans ?_
  show Finset.fold min (Ideal.ofBits .f32 0x7F800000#32) (fun p : Fin a => v (h.lift (ix1 q) p)) Finset.univ = _
  rw [inf_word, fold_min_top]
  exact iInf_congr fun p => congrArg v (funext fun d => Fin.ext (by
    match d with
    | ⟨0, _⟩ => rfl
    | ⟨1, _⟩ => rfl))

/-- The host's minimum-reduction along the first axis, from a scalar holding the word of `+∞`, at `q`. -/
theorem hostColMin_apply {a b : ℕ} {u : Shape} (x : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.minimumf (F := Ideal) (φ := .f32)) x (constant (F := Ideal) u .f32 0x7F800000#32) h' hu (ix1 q)
      = ⨅ p : Fin a, x (ix2 p q) := by
  refine (Host.reduce_eq_fold_single (FloatOps.minimumf (F := Ideal) (φ := .f32)) x _ h' h hu (ix1 q)).trans ?_
  show Finset.fold min (Ideal.ofBits .f32 0x7F800000#32) (fun p : Fin a => x (h.lift (ix1 q) p)) Finset.univ = _
  rw [inf_word, fold_min_top]
  exact iInf_congr fun p => congrArg x (funext fun d => Fin.ext (by
    match d with
    | ⟨0, _⟩ => rfl
    | ⟨1, _⟩ => rfl))

/-! ## A plain matrix product -/

/-- The dimension numbers of a plain product: one contracted axis of extent `K`; the left operand's index at output `j`
    and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_plain_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_plain_apply {φ₁ φ₂ : FTy}
    (d : DotDims (⟨2, ![M, K]⟩ : Shape) (⟨2, ![K, N]⟩ : Shape) (⟨2, ![M, N]⟩ : Shape)) (hd : PlainDot d)
    (prec : Option ContractPrecision) (lhs : FVec Ideal ⟨2, ![M, K]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 p k) * rhs (ix2 k n) :=
  (Ideal.matmul_constant_zero_apply d prec lhs rhs (ix2 p n)).trans (sum_contr_plain_eq d hd lhs rhs (ix2 p n))

end Cert.Lib.TileRead

end
-- ==== Proof.LibColumnSum.lean ====
/-
  Two readings at an index that a sum along the second axis, kept as a one-entry-per-row column, needs, at any
  extents `a`, `b`.

  A vector of `a` entries recast as a column of `a` rows and one entry per row has, in row `i`, the vector's entry `i`: the
  two positions are the same in row-major order, `i = i·1 + 0`. And the sum of an `a × b` array along its second axis,
  from the zero word, has at `r` the sum over `k` of the array's entries `(r, k)`.
-/
import Idealize.ShloMosaic.Lib.ValueIdx
import Idealize.ShloMosaic.Lib.Pipeline.Value
import Idealize.ShloMosaic.PureOps.Ideal.Laws

noncomputable section

namespace Cert.Lib.ColumnSum

open Idealize.ShloMosaic Idealize.ShloMosaic.ValueIdx

/-- An `[a]` array cast to `[a, 1]` reads, at `(i, u)`, the operand at `i`, whatever the unit coordinate `u`. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum of an `[a, b]` array of extended reals along its second axis, from the zero word, reads at `r` the sum over
    `k` of the entries `(r, k)`. -/
theorem lane_sum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (funext fun d => Fin.ext (by
      match d with
      | ⟨0, _⟩ => rfl
      | ⟨1, _⟩ => rfl)))

end Cert.Lib.ColumnSum

end
-- ==== Proof.Body.lean ====
/-
  What the kernel body computes from the blocks it loads, read at an index.

  At a grid point the body holds one sequence X (2048 positions by 512 features, behind a leading unit axis), a tile of 512
  query rows Q, the matching tile of output rows R and of biases c. It forms, for the tile's row p:

    the scores     s p l = sum over d of Q[p, d] * X[l, d]          (a product against the transposed sequence),
    the weights    w p l = softmax over l of s p,                    (maximum, difference, exponential, sum, quotient)
    the context    m p d = sum over l of w p l * X[l, d]             (a plain matrix product),
    the logit      z p   = (sum over d of R[p, d] * m p d) + c[p],

  and stores w, m and z behind leading unit axes. On the extended reals a change of float format is the identity, a matrix
  product into a zero accumulator is the plain finite sum, and a lane reduction from the neutral word is the fold or the sum
  over the row; so each stored value at an index is the formula above at that index.
-/
import proofs.«163239_j84421877170739_2_alg».proof.Proof.Gen.KernelIdeal.Skeleton
import proofs.«163239_j84421877170739_2_alg».proof.Proof.LibRowSoftmax
import proofs.«163239_j84421877170739_2_alg».proof.Proof.LibTransDot
import proofs.«163239_j84421877170739_2_alg».proof.Proof.LibTileRead
import proofs.«163239_j84421877170739_2_alg».proof.Proof.LibColumnSum
import Idealize.ShloMosaic.Lib.ValueIdx
import Idealize.ShloMosaic.Lib.Pipeline.Value
import Idealize.ShloMosaic.PureOps.Ideal.Laws

noncomputable section

open scoped BigOperators

namespace Cert.LabelAttention.Body

open Cert.KernelIdeal Cert.KernelIdeal.Gen Idealize.ShloMosaic Idealize.ShloMosaic.ValueIdx Idealize.ShloMosaic.RowSoftmax

/-- The product of the query tile against the transposed sequence contracts the second axis of both. -/
theorem scoreDims : TransDot.TransDot dot_S512x512_S2048x512_S512x2048_1_1_0_0_n_n where
  hr := rfl
  hs := rfl
  l0 := fun j q => by
    unfold DotDims.lhsIdx
    rw [dif_neg (show ¬(0 : Fin S512x512.rank) ∈ dot_S512x512_S2048x512_S512x2048_1_1_0_0_n_n.lhsBatch by decide),
      dif_pos (show (0 : Fin S512x512.rank) ∈ dot_S512x512_S2048x512_S512x2048_1_1_0_0_n_n.lhsNonContracting by decide)]
    rfl
  l1 := fun j q => dot_S512x512_S2048x512_S512x2048_1_1_0_0_n_n.lhsIdx_val_of_single rfl j q
  r0 := fun j q => by
    unfold DotDims.rhsIdx
    rw [dif_neg (show ¬(0 : Fin S2048x512.rank) ∈ dot_S512x512_S2048x512_S512x2048_1_1_0_0_n_n.rhsBatch by decide),
      dif_pos (show (0 : Fin S2048x512.rank) ∈ dot_S512x512_S2048x512_S512x2048_1_1_0_0_n_n.rhsNonContracting by decide)]
    rfl
  r1 := fun j q => dot_S512x512_S2048x512_S512x2048_1_1_0_0_n_n.rhsIdx_val_of_single rfl j q

/-- The product of the weights against the sequence is a plain matrix product. -/
theorem contextDims : Cert.Lib.TileRead.PlainDot dot_S512x2048_S2048x512_S512x512_1_0_0_1_n_n where
  hr := rfl
  hs := rfl
  l0 := fun j q => by
    unfold DotDims.lhsIdx
    rw [dif_neg (show ¬(0 : Fin S512x2048.rank) ∈ dot_S512x2048_S2048x512_S512x512_1_0_0_1_n_n.lhsBatch by decide),
      dif_pos (show (0 : Fin S512x2048.rank) ∈ dot_S512x2048_S2048x512_S512x512_1_0_0_1_n_n.lhsNonContracting by decide)]
    rfl
  l1 := fun j q => dot_S512x2048_S2048x512_S512x512_1_0_0_1_n_n.lhsIdx_val_of_single rfl j q
  r0 := fun j q => dot_S512x2048_S2048x512_S512x512_1_0_0_1_n_n.rhsIdx_val_of_single rfl j q
  r1 := fun j q => by
    unfold DotDims.rhsIdx
    rw [dif_neg (show ¬(1 : Fin S2048x512.rank) ∈ dot_S512x2048_S2048x512_S512x512_1_0_0_1_n_n.rhsBatch by decide),
      dif_pos (show (1 : Fin S2048x512.rank) ∈ dot_S512x2048_S2048x512_S512x512_1_0_0_1_n_n.rhsNonContracting by decide)]
    rfl

variable (x0 : Vec Ideal S1x2048x512 .bf16) (x1 : Vec Ideal S512x512 .bf16) (x2 : Vec Ideal S512x512 .f32) (x3 : Vec Ideal S512 .f32)

/-- The sequence without its leading unit axis: position `l`, feature `d`. -/
theorem seq_apply (l : Fin 2048) (d : Fin 512) : k0_pay1 (F := Ideal) x0 (ix2 l d) = x0 (ix3 (0 : Fin 1) l d) := by
  unfold k0_pay1
  exact shapeCast_apply x0 shapeCasts_S1x2048x512_S2048x512 (ix2 l d) (ix3 (0 : Fin 1) l d) (by
    rw [Shape.rowMajor_val_two, Shape.rowMajor_val_three]
    show (0 * 2048 + l.val) * 512 + d.val = l.val * 512 + d.val
    omega)

/-- The scores of the tile's row `p` against the positions. -/
def scores (p : Fin 512) (l : Fin 2048) : EReal := ∑ d : Fin 512, x1 (ix2 p d) * x0 (ix3 (0 : Fin 1) l d)

/-- The tile of scores as the body forms it: the query tile against the transposed sequence, into zero. -/
def scoreTile : FVec Ideal S512x2048 .f32 :=
  matmul (φ₁ := .bf16) (φ₂ := .bf16) dot_S512x512_S2048x512_S512x2048_1_1_0_0_n_n none
    (shapeCast S512x512 x1 shapeCasts_S512x512_S512x512) (k0_pay1 (F := Ideal) x0) (constant (F := Ideal) S512x2048 .f32 0x00000000#32)

theorem scoreTile_apply (p : Fin 512) (l : Fin 2048) : scoreTile x0 x1 (ix2 p l) = scores x0 x1 p l := by
  unfold scoreTile
  refine (TransDot.matmul_zero_trans_apply (φ₁ := .bf16) (φ₂ := .bf16) dot_S512x512_S2048x512_S512x2048_1_1_0_0_n_n scoreDims none _ _ p l).trans ?_
  unfold scores
  refine Finset.sum_congr rfl fun d _ => ?_
  rw [shapeCast_self, seq_apply]

/-- The weights: the softmax of the row's scores. -/
theorem weights_apply (p : Fin 512) (l : Fin 2048) :
    k0_pay2 (F := Ideal) x0 x1 (ix2 p l) = softmax (scores x0 x1 p) l := by
  show softmaxRows (scoreTile x0 x1) reduces_S512x2048_S512 (.inl rfl) rfl rfl shapeCasts_S512_S512x1 broadcasts_S512x1_S512x2048 (ix2 p l) = _
  rw [softmaxRows_apply]
  exact congrArg (fun s => softmax s l) (funext (scoreTile_apply x0 x1 p))

/-- The context: the positions' features averaged by the weights. -/
theorem context_apply (p : Fin 512) (d : Fin 512) :
    k0_pay3 (F := Ideal) x0 x1 (ix2 p d) = ∑ l : Fin 2048, k0_pay2 (F := Ideal) x0 x1 (ix2 p l) * x0 (ix3 (0 : Fin 1) l d) := by
  unfold k0_pay3
  refine (Cert.Lib.TileRead.matmul_zero_plain_apply (φ₁ := .bf16) (φ₂ := .bf16) dot_S512x2048_S2048x512_S512x512_1_0_0_1_n_n contextDims none _ _ p d).trans ?_
  refine Finset.sum_congr rfl fun l _ => ?_
  rw [seq_apply]
  rfl

/-- The stored weights, behind the block's leading unit axis. -/
theorem stored_weights_apply (u : Fin 1) (p : Fin 512) (l : Fin 2048) :
    k0_pay4 (F := Ideal) x0 x1 (ix3 u p l) = k0_pay2 (F := Ideal) x0 x1 (ix2 p l) := by
  unfold k0_pay4
  exact shapeCast_apply _ shapeCasts_S512x2048_S1x512x2048 (ix3 u p l) (ix2 p l) (by
    have hu : u.val = 0 := by omega
    rw [Shape.rowMajor_val_two, Shape.rowMajor_val_three]
    show p.val * 2048 + l.val = (u.val * 512 + p.val) * 2048 + l.val
    rw [hu]; omega)

/-- The stored context, behind the block's leading unit axis. -/
theorem stored_context_apply (u : Fin 1) (p : Fin 512) (d : Fin 512) :
    k0_pay5 (F := Ideal) x0 x1 (ix3 u p d) = k0_pay3 (F := Ideal) x0 x1 (ix2 p d) := by
  unfold k0_pay5
  exact shapeCast_apply _ shapeCasts_S512x512_S1x512x512 (ix3 u p d) (ix2 p d) (by
    have hu : u.val = 0 := by omega
    rw [Shape.rowMajor_val_two, Shape.rowMajor_val_three]
    show p.val * 512 + d.val = (u.val * 512 + p.val) * 512 + d.val
    rw [hu]; omega)

/-- The stored logits, behind two leading unit axes. -/
theorem stored_logit_apply (u v : Fin 1) (p : Fin 512) :
    k0_pay6 (F := Ideal) x0 x1 x2 x3 (ix3 u v p)
      = (∑ d : Fin 512, x2 (ix2 p d) * k0_pay3 (F := Ideal) x0 x1 (ix2 p d)) + x3 (ix1 p) := by
  unfold k0_pay6
  refine (shapeCast_apply _ shapeCasts_S512_S1x1x512 (ix3 u v p) (ix1 p) (by
    have hu : u.val = 0 := by omega
    have hv : v.val = 0 := by omega
    rw [Shape.rowMajor_val_one, Shape.rowMajor_val_three]
    show p.val = (u.val * 1 + v.val) * 512 + p.val
    rw [hu, hv]; omega)).trans ?_
  rw [addf_apply, shapeCast_self, shapeCast_self]
  refine congrArg (· + x3 (ix1 p)) ?_
  exact Cert.Lib.ColumnSum.lane_sum_apply _ reduces_S512x512_S512 (.inl rfl) rfl p

end Cert.LabelAttention.Body

end
-- ==== Proof.Attention.lean ====
/-
  Per-label attention over a sequence, as one function of the argument arrays.

  For a batch of sequences x[b, l, :] (8 sequences of 2048 positions, 512 features) and 8921 labels with query rows U[y, :],
  output rows W[y, :] and biases c[y]:

    score b y l   = sum over d of U[y, d] * x[b, l, d]
    weight b y l  = the softmax over l of the scores of (b, y), taken against their largest entry
    context b y d = sum over l of weight b y l * x[b, l, d]
    logit b y     = (sum over d of W[y, d] * context b y d) + c[y]

  Everything is read on the extended reals: the sums are finite sums there, the softmax is the one of the row library
  (exponentials against the fold of max from -infinity, over their sum).
-/
import Idealize.ShloMosaic.Lib.ValueIdx
import Idealize.ShloMosaic.PureOps.Ideal
import proofs.«163239_j84421877170739_2_alg».proof.Proof.LibRowSoftmax

noncomputable section

open scoped BigOperators

namespace Cert.LabelAttention

open Idealize.ShloMosaic Idealize.ShloMosaic.ValueIdx Idealize.ShloMosaic.RowSoftmax

/-- The scores of label `y` against the positions of sequence `b`. -/
def score (x : (⟨3, ![8, 2048, 512]⟩ : Shape).Idx → EReal) (U : (⟨2, ![8921, 512]⟩ : Shape).Idx → EReal)
    (b : Fin 8) (y : Fin 8921) (l : Fin 2048) : EReal :=
  ∑ d : Fin 512, U (ix2 y d) * x (ix3 b l d)

/-- The attention weights: the softmax of a label's scores over the positions. -/
def weight (x : (⟨3, ![8, 2048, 512]⟩ : Shape).Idx → EReal) (U : (⟨2, ![8921, 512]⟩ : Shape).Idx → EReal) :
    (⟨3, ![8, 8921, 2048]⟩ : Shape).Idx → EReal :=
  fun i => softmax (score x U (i 0) (i 1)) (i 2)

/-- The label's context vector: the positions' features averaged by the weights. -/
def context (x : (⟨3, ![8, 2048, 512]⟩ : Shape).Idx → EReal) (U : (⟨2, ![8921, 512]⟩ : Shape).Idx → EReal) :
    (⟨3, ![8, 8921, 512]⟩ : Shape).Idx → EReal :=
  fun i => ∑ l : Fin 2048, weight x U (ix3 (i 0) (i 1) l) * x (ix3 (i 0) l (i 2))

/-- The label's logit: its output row against its context, plus its bias. -/
def logit (x : (⟨3, ![8, 2048, 512]⟩ : Shape).Idx → EReal) (U W : (⟨2, ![8921, 512]⟩ : Shape).Idx → EReal)
    (c : (⟨1, ![8921]⟩ : Shape).Idx → EReal) : (⟨2, ![8, 8921]⟩ : Shape).Idx → EReal :=
  fun i => (∑ d : Fin 512, W (ix2 (i 1) d) * context x U (ix3 (i 0) (i 1) d)) + c (ix1 (i 1))

end Cert.LabelAttention

end
-- ==== Proof.Tile.lean ====
/-
  A tile of the kernel's work is a restriction of the whole-array functions.

  Suppose the sequence block X the body holds is sequence `b` of the batch (X[u, l, d] = x[b, l, d]) and row `p` of its query
  tile Q is query row `y` (Q[p, d] = U[y, d]). Then the scores of row `p` are the scores of (b, y), so the stored weight at
  (p, l) is the attention weight at (b, y, l) and the stored context at (p, d) is the context at (b, y, d). If moreover row
  `p` of the output-row tile R is output row `y` and entry `p` of the bias tile is bias `y`, the stored logit at p is the
  logit at (b, y). Only equal summands are exchanged: no law of the extended reals is used.
-/
import proofs.«163239_j84421877170739_2_alg».proof.Proof.Body
import proofs.«163239_j84421877170739_2_alg».proof.Proof.Attention

noncomputable section

open scoped BigOperators

namespace Cert.LabelAttention.Tile

open Cert.KernelIdeal Cert.KernelIdeal.Gen Idealize.ShloMosaic Idealize.ShloMosaic.ValueIdx Idealize.ShloMosaic.RowSoftmax
open Cert.LabelAttention Cert.LabelAttention.Body

variable (x : (⟨3, ![8, 2048, 512]⟩ : Shape).Idx → EReal) (U W : (⟨2, ![8921, 512]⟩ : Shape).Idx → EReal)
  (c : (⟨1, ![8921]⟩ : Shape).Idx → EReal)
variable (X : Vec Ideal S1x2048x512 .bf16) (Q : Vec Ideal S512x512 .bf16) (R : Vec Ideal S512x512 .f32) (C : Vec Ideal S512 .f32)
variable (b : Fin 8) (y : Fin 8921) (p : Fin 512)

/-- The tile's row of scores is the label's row of scores. -/
theorem scores_eq (hX : ∀ (u : Fin 1) (l : Fin 2048) (d : Fin 512), X (ix3 u l d) = x (ix3 b l d))
    (hQ : ∀ d : Fin 512, Q (ix2 p d) = U (ix2 y d)) : scores X Q p = score x U b y := by
  funext l
  unfold scores score
  exact Finset.sum_congr rfl fun d _ => by rw [hQ d, hX 0 l d]

/-- The stored weight is the attention weight. -/
theorem weight_of_blocks (hX : ∀ (u : Fin 1) (l : Fin 2048) (d : Fin 512), X (ix3 u l d) = x (ix3 b l d))
    (hQ : ∀ d : Fin 512, Q (ix2 p d) = U (ix2 y d)) (u : Fin 1) (l : Fin 2048) :
    k0_pay4 (F := Ideal) X Q (ix3 u p l) = weight x U (ix3 b y l) := by
  rw [stored_weights_apply, weights_apply, scores_eq x U X Q b y p hX hQ]
  rfl

/-- The tile's context row is the label's context. -/
theorem context_eq (hX : ∀ (u : Fin 1) (l : Fin 2048) (d : Fin 512), X (ix3 u l d) = x (ix3 b l d))
    (hQ : ∀ d : Fin 512, Q (ix2 p d) = U (ix2 y d)) (d : Fin 512) :
    k0_pay3 (F := Ideal) X Q (ix2 p d) = context x U (ix3 b y d) := by
  rw [context_apply]
  unfold context
  refine Finset.sum_congr rfl fun l _ => ?_
  rw [weights_apply, scores_eq x U X Q b y p hX hQ, hX 0 l d]
  rfl

/-- The stored context is the label's context. -/
theorem context_of_blocks (hX : ∀ (u : Fin 1) (l : Fin 2048) (d : Fin 512), X (ix3 u l d) = x (ix3 b l d))
    (hQ : ∀ d : Fin 512, Q (ix2 p d) = U (ix2 y d)) (u : Fin 1) (d : Fin 512) :
    k0_pay5 (F := Ideal) X Q (ix3 u p d) = context x U (ix3 b y d) := by
  rw [stored_context_apply]
  exact context_eq x U X Q b y p hX hQ d

/-- The stored logit is the label's logit. -/
theorem logit_of_blocks (hX : ∀ (u : Fin 1) (l : Fin 2048) (d : Fin 512), X (ix3 u l d) = x (ix3 b l d))
    (hQ : ∀ d : Fin 512, Q (ix2 p d) = U (ix2 y d)) (hR : ∀ d : Fin 512, R (ix2 p d) = W (ix2 y d))
    (hC : C (ix1 p) = c (ix1 y)) (u v : Fin 1) :
    k0_pay6 (F := Ideal) X Q R C (ix3 u v p) = logit x U W c (ix2 b y) := by
  rw [stored_logit_apply, hC]
  unfold logit
  refine congrArg (· + c (ix1 y)) ?_
  exact Finset.sum_congr rfl fun d _ => by rw [hR d, context_eq x U X Q b y p hX hQ d]

end Cert.LabelAttention.Tile

end
-- ==== Proof.LibBlockRead.lean ====
/-
  A whole-buffer function read through a rectangle of the buffer.

  Reading contents `G` of a whole buffer through the view that a rectangle `r` cuts out of it gives, at an index `j` of the
  rectangle, `G` at the place `r.emb j` of the buffer (on each axis the rectangle's offset plus its stride times `j`'s
  coordinate). Stated over an abstract buffer and rectangle, so that it holds by unfolding alone and no extent is evaluated; a
  pipelined block, whose rectangle's sizes may be cut at the array's end, is read at an index by applying it.
-/
import Idealize.ShloMosaic.Lib.Pipeline.Value

noncomputable section

namespace Cert.Lib.BlockRead

open Idealize.ShloMosaic

/-- A function on a whole buffer read through a rectangle of it, at an index of the rectangle, is the function at the
    index's place in the buffer. -/
theorem read_block_apply {sig : RefSig} {κ : Kind} {Val : EltTy → Type} (b : Ref sig κ) (r : Rect b.ty.shape)
    (G : b.ty.Contents Val) (j : r.shape.Idx) : ((View.whole b).slice r).read Val G j = G (r.emb j) := rfl

end Cert.Lib.BlockRead

end
-- ==== Proof.Arrays.lean ====
/-
  The three result arrays after the kernel has run.

  At the point (b, k) the body's three stores are blocks of whole-array functions of the arguments: the stored weights are the
  attention weights at (b, 512 k + p, l), the stored context the context at (b, 512 k + p, d), the stored logits the logits at
  (b, 512 k + p). The last label tile overhangs the arrays (18 * 512 = 9216 > 8921) and only its first 217 rows are written back;
  a row that is written back has a label below 8921, where the padded operands are the arguments. Every index of a result array
  lies in the block of the point (its sequence, its label divided by 512), so each array ends holding its function everywhere.
-/
import proofs.«163239_j84421877170739_2_alg».proof.Proof.Gen.KernelIdeal.Frame
import proofs.«163239_j84421877170739_2_alg».proof.Proof.Blocks
import proofs.«163239_j84421877170739_2_alg».proof.Proof.Entry
import proofs.«163239_j84421877170739_2_alg».proof.Proof.Tile
import proofs.«163239_j84421877170739_2_alg».proof.Proof.LibBlockRead
import Idealize.ShloMosaic.Lib.ValueIdx
import Idealize.ShloMosaic.Lib.Pipeline.Value

noncomputable section

namespace Cert.LabelAttention.Arrays

open Cert.KernelIdeal Cert.KernelIdeal.Gen Idealize.ShloMosaic Idealize.ShloMosaic.TcCoe Idealize.SL.Sem Idealize.ShloMosaic.ValueIdx
open Cert.LabelAttention Cert.Lib.BlockRead

-- the whole-array functions stay closed here: a block's reading is compared with them as they stand
attribute [local irreducible] weight context logit

variable (m : (ℓ : Loc nD τ sig) → Buf (Elt Ideal) ℓ)

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- How much of each result block lies inside its array, decided over the grid: all of it except on the label axis of the
    last label tile, where 217 = 8921 - 17 * 512 rows do. -/
theorem extent_facts : ∀ t : Fin cfg0.N,
    win0_4.xsize (grid0.coords t) (0 : Fin 3) = 1 ∧ win0_4.xsize (grid0.coords t) (2 : Fin 3) = 2048
    ∧ (win0_4.index t (1 : Fin 3) < 17 → win0_4.xsize (grid0.coords t) (1 : Fin 3) = 512)
    ∧ (win0_4.index t (1 : Fin 3) = 17 → win0_4.xsize (grid0.coords t) (1 : Fin 3) = 217)
    ∧ win0_5.xsize (grid0.coords t) (0 : Fin 3) = 1 ∧ win0_5.xsize (grid0.coords t) (2 : Fin 3) = 512
    ∧ (win0_4.index t (1 : Fin 3) < 17 → win0_5.xsize (grid0.coords t) (1 : Fin 3) = 512)
    ∧ (win0_4.index t (1 : Fin 3) = 17 → win0_5.xsize (grid0.coords t) (1 : Fin 3) = 217)
    ∧ win0_6.xsize (grid0.coords t) (0 : Fin 3) = 1 ∧ win0_6.xsize (grid0.coords t) (1 : Fin 3) = 1
    ∧ (win0_4.index t (1 : Fin 3) < 17 → win0_6.xsize (grid0.coords t) (2 : Fin 3) = 512)
    ∧ (win0_4.index t (1 : Fin 3) = 17 → win0_6.xsize (grid0.coords t) (2 : Fin 3) = 217) :=
  (by decide +kernel : ∀ t : Fin grid0.N, _)

/-- Every (sequence, label tile) pair is some point's. -/
theorem idx_onto : ∀ (q0 : Fin 8) (q1 : Fin 18), ∃ t : Fin cfg0.N,
    win0_4.index t (0 : Fin 3) = q0.val ∧ win0_4.index t (1 : Fin 3) = q1.val :=
  (by decide +kernel : ∀ (q0 : Fin 8) (q1 : Fin 18), ∃ t : Fin grid0.N,
    win0_4.index t (0 : Fin 3) = q0.val ∧ win0_4.index t (1 : Fin 3) = q1.val)

/-- The arguments the functions are of. -/
abbrev xs (c : Dev nD) : S8x2048x512.Idx → EReal := m ((c : Thread nD τ).loc main_arg0)
abbrev Us (c : Dev nD) : S8921x512.Idx → EReal := m ((c : Thread nD τ).loc main_arg3)
abbrev Ws (c : Dev nD) : S8921x512.Idx → EReal := m ((c : Thread nD τ).loc main_arg4)
abbrev cs (c : Dev nD) : S8921.Idx → EReal := m ((c : Thread nD τ).loc main_arg5)

/-- The blocks the body holds at a point are the arguments' sequence `b` and rows `y`, for a row `p` of the label tile whose
    label `y = 512 k + p` is below 8921. -/
theorem seq_of_block (c : Dev nD) (t : Fin cfg0.N) (b : Fin 8) (hb : b.val = win0_4.index t (0 : Fin 3))
    (u : Fin 1) (l : Fin 2048) (d : Fin 512) : iblk m c 0 t (ix3 u l d) = xs m c (ix3 b l d) :=
  (Blocks.seq_block m c t b hb u l d).trans (congrFun (Entry.seq_entry m c) (ix3 b l d))

theorem query_of_block (c : Dev nD) (t : Fin cfg0.N) (p : Fin 512) (y : Fin 8921)
    (hy : y.val = win0_4.index t (1 : Fin 3) * 512 + p.val) (d : Fin 512) : iblk m c 1 t (ix2 p d) = Us m c (ix2 y d) :=
  (Blocks.query_block m c t p ⟨y.val, by have := y.isLt; omega⟩ hy d).trans
    (Entry.query_entry m c y ⟨y.val, by have := y.isLt; omega⟩ rfl d)

theorem outrow_of_block (c : Dev nD) (t : Fin cfg0.N) (p : Fin 512) (y : Fin 8921)
    (hy : y.val = win0_4.index t (1 : Fin 3) * 512 + p.val) (d : Fin 512) : iblk m c 2 t (ix2 p d) = Ws m c (ix2 y d) :=
  (Blocks.outrow_block m c t p ⟨y.val, by have := y.isLt; omega⟩ hy d).trans
    (Entry.outrow_entry m c y ⟨y.val, by have := y.isLt; omega⟩ rfl d)

theorem bias_of_block (c : Dev nD) (t : Fin cfg0.N) (p : Fin 512) (y : Fin 8921)
    (hy : y.val = win0_4.index t (1 : Fin 3) * 512 + p.val) : iblk m c 3 t (ix1 p) = cs m c (ix1 y) :=
  (Blocks.bias_block m c t p ⟨y.val, by have := y.isLt; omega⟩ hy).trans
    (Entry.bias_entry m c y ⟨y.val, by have := y.isLt; omega⟩ rfl)

/-! ## The weights -/

set_option maxHeartbeats 400000 in
/-- What a point writes back to the weights array is its block of the attention weights. -/
theorem flushed_weights (c : Dev nD) (t : Fin cfg0.N) :
    (dats m 0 c).flushed 4 t = ((cfg0.win 4).blk t).view.read (Elt Ideal) (weight (xs m c) (Us m c)) := by
  show (cfg0.win 4).cut (grid0.coords t) ((dats m 0 c).after 4 t) = _
  rw [after0_4]
  unfold out0_4
  rw [View.canon_unit_zero hz3]
  simp only [View.ld_unit_zero (S := S1x2048x512) hz3, View.ld_unit_zero (S := S512x512) hz2]
  funext j
  obtain ⟨-, -, -, -, -, -, -, -, e8, -⟩ := Blocks.idx_facts t
  have hj0 : (j (0 : Fin 3)).val < 1 := Nat.lt_of_lt_of_le (j (0 : Fin 3)).isLt (win0_4.xsize_le (grid0.coords t) (0 : Fin 3))
  have hj1 : (j (1 : Fin 3)).val < 512 := Nat.lt_of_lt_of_le (j (1 : Fin 3)).isLt (win0_4.xsize_le (grid0.coords t) (1 : Fin 3))
  have hj2 : (j (2 : Fin 3)).val < 2048 := Nat.lt_of_lt_of_le (j (2 : Fin 3)).isLt (win0_4.xsize_le (grid0.coords t) (2 : Fin 3))
  have hx : (cfg0.win 4).xinj (grid0.coords t) j
      = ix3 (⟨(j (0 : Fin 3)).val, hj0⟩ : Fin 1) (⟨(j (1 : Fin 3)).val, hj1⟩ : Fin 512) (⟨(j (2 : Fin 3)).val, hj2⟩ : Fin 2048) :=
    funext fun (a : Fin 3) => Fin.ext (by match a with | ⟨0, _⟩ => rfl | ⟨1, _⟩ => rfl | ⟨2, _⟩ => rfl)
  obtain ⟨b, y, l, hi, hb, hy, hl⟩ : ∃ (b : Fin 8) (y : Fin 8921) (l : Fin 2048),
      (win0_4.rect t).emb j = ix3 b y l ∧ b.val = win0_4.index t (0 : Fin 3)
        ∧ y.val = win0_4.index t (1 : Fin 3) * 512 + (j (1 : Fin 3)).val ∧ l.val = (j (2 : Fin 3)).val :=
    ⟨(win0_4.rect t).emb j (0 : Fin 3), (win0_4.rect t).emb j (1 : Fin 3), (win0_4.rect t).emb j (2 : Fin 3),
      eq_ix3 (n0 := 8) (n1 := 8921) (n2 := 2048) _,
      (show win0_4.index t (0 : Fin 3) * 1 + 1 * (j (0 : Fin 3)).val = win0_4.index t (0 : Fin 3) by omega),
      (show win0_4.index t (1 : Fin 3) * 512 + 1 * (j (1 : Fin 3)).val = win0_4.index t (1 : Fin 3) * 512 + (j (1 : Fin 3)).val by omega),
      (show win0_4.index t (2 : Fin 3) * 2048 + 1 * (j (2 : Fin 3)).val = (j (2 : Fin 3)).val by omega)⟩
  have hl' : (⟨(j (2 : Fin 3)).val, hj2⟩ : Fin 2048) = l := Fin.ext hl.symm
  have key := Tile.weight_of_blocks (xs m c) (Us m c) (iblk m c 0 t) (iblk m c 1 t) b y ⟨(j (1 : Fin 3)).val, hj1⟩
    (fun u l d => seq_of_block m c t b hb u l d) (fun d => query_of_block m c t ⟨(j (1 : Fin 3)).val, hj1⟩ y hy d) ⟨(j (0 : Fin 3)).val, hj0⟩ l
  refine Eq.trans ?_ (read_block_apply (Val := Elt Ideal) main_v5_0 ((win0 4).rect t) (weight (xs m c) (Us m c)) j).symm
  exact (congrArg (k0_pay4 (F := Ideal) _ _) (hx.trans (congrArg (ix3 (⟨(j (0 : Fin 3)).val, hj0⟩ : Fin 1) (⟨(j (1 : Fin 3)).val, hj1⟩ : Fin 512)) hl'))).trans
    (key.trans (congrArg (weight (xs m c) (Us m c)) hi.symm))

/-- An index of the weights array is in a point's block iff each coordinate is in the block's part inside the array. -/
theorem mem_weights_block (t : Fin cfg0.N) (i : S8x8921x2048.Idx) :
    i ∈ ((cfg0.win 4).blk t).view.set ↔ ∀ a : Fin 3, win0_4.index t a * S1x512x2048.size a ≤ (i a).val
      ∧ (i a).val < win0_4.index t a * S1x512x2048.size a + win0_4.xsize (grid0.coords t) a := by
  show i ∈ ((View.whole main_v5_0).slice (win0_4.rect t)).set ↔ _
  rw [View.set_slice_whole, Rect.mem_set_unit]
  exact Iff.rfl

/-- Every index of the weights array is written back by the point of its sequence and label tile. -/
theorem weights_cover (i : S8x8921x2048.Idx) :
    ∃ t : Fin cfg0.N, (cfg0.win 4).flush t = true ∧ i ∈ ((cfg0.win 4).blk t).view.set := by
  have hi0 : (i 0).val < 8 := (i 0).isLt
  have hi1 : (i 1).val < 8921 := (i 1).isLt
  have hi2 : (i 2).val < 2048 := (i 2).isLt
  obtain ⟨t, q0, q1⟩ := idx_onto ⟨(i 0).val, hi0⟩ ⟨(i 1).val / 512, by omega⟩
  have q0' : win0_4.index t (0 : Fin 3) = (i 0).val := q0
  have q1' : win0_4.index t (1 : Fin 3) = (i 1).val / 512 := q1
  obtain ⟨-, -, -, -, -, -, -, -, e8, -⟩ := Blocks.idx_facts t
  obtain ⟨x0, x2, xa, xb, -⟩ := extent_facts t
  refine ⟨t, flush0_4 t, ?_⟩
  rw [mem_weights_block]
  intro a
  match a with
  | ⟨0, _⟩ =>
    show win0_4.index t (0 : Fin 3) * 1 ≤ (i 0).val ∧ (i 0).val < win0_4.index t (0 : Fin 3) * 1 + win0_4.xsize (grid0.coords t) (0 : Fin 3)
    omega
  | ⟨1, _⟩ =>
    show win0_4.index t (1 : Fin 3) * 512 ≤ (i 1).val ∧ (i 1).val < win0_4.index t (1 : Fin 3) * 512 + win0_4.xsize (grid0.coords t) (1 : Fin 3)
    omega
  | ⟨2, _⟩ =>
    show win0_4.index t (2 : Fin 3) * 2048 ≤ (i 2).val ∧ (i 2).val < win0_4.index t (2 : Fin 3) * 2048 + win0_4.xsize (grid0.coords t) (2 : Fin 3)
    omega

/-- The weights array ends holding the attention weights. -/
theorem weights_final (c : Dev nD) : (dats m 0 c).arrAt 4 cfg0.N = weight (xs m c) (Us m c) :=
  (dats m 0 c).arrAt_eq_of_cover 4 _ (fun t _ => flushed_weights m c t) weights_cover

/-! ## The context -/

set_option maxHeartbeats 400000 in
/-- What a point writes back to the context array is its block of the labels' context vectors. -/
theorem flushed_context (c : Dev nD) (t : Fin cfg0.N) :
    (dats m 0 c).flushed 5 t = ((cfg0.win 5).blk t).view.read (Elt Ideal) (context (xs m c) (Us m c)) := by
  show (cfg0.win 5).cut (grid0.coords t) ((dats m 0 c).after 5 t) = _
  rw [after0_5]
  unfold out0_5
  rw [View.canon_unit_zero hz3]
  simp only [View.ld_unit_zero (S := S1x2048x512) hz3, View.ld_unit_zero (S := S512x512) hz2]
  funext j
  obtain ⟨-, -, -, -, -, -, -, -, -, e9, e10, e11, -⟩ := Blocks.idx_facts t
  have hj0 : (j (0 : Fin 3)).val < 1 := Nat.lt_of_lt_of_le (j (0 : Fin 3)).isLt (win0_5.xsize_le (grid0.coords t) (0 : Fin 3))
  have hj1 : (j (1 : Fin 3)).val < 512 := Nat.lt_of_lt_of_le (j (1 : Fin 3)).isLt (win0_5.xsize_le (grid0.coords t) (1 : Fin 3))
  have hj2 : (j (2 : Fin 3)).val < 512 := Nat.lt_of_lt_of_le (j (2 : Fin 3)).isLt (win0_5.xsize_le (grid0.coords t) (2 : Fin 3))
  have hx : (cfg0.win 5).xinj (grid0.coords t) j
      = ix3 (⟨(j (0 : Fin 3)).val, hj0⟩ : Fin 1) (⟨(j (1 : Fin 3)).val, hj1⟩ : Fin 512) (⟨(j (2 : Fin 3)).val, hj2⟩ : Fin 512) :=
    funext fun (a : Fin 3) => Fin.ext (by match a with | ⟨0, _⟩ => rfl | ⟨1, _⟩ => rfl | ⟨2, _⟩ => rfl)
  obtain ⟨b, y, d, hi, hb, hy, hd⟩ : ∃ (b : Fin 8) (y : Fin 8921) (d : Fin 512),
      (win0_5.rect t).emb j = ix3 b y d ∧ b.val = win0_4.index t (0 : Fin 3)
        ∧ y.val = win0_4.index t (1 : Fin 3) * 512 + (j (1 : Fin 3)).val ∧ d.val = (j (2 : Fin 3)).val :=
    ⟨(win0_5.rect t).emb j (0 : Fin 3), (win0_5.rect t).emb j (1 : Fin 3), (win0_5.rect t).emb j (2 : Fin 3),
      eq_ix3 (n0 := 8) (n1 := 8921) (n2 := 512) _,
      (show win0_5.index t (0 : Fin 3) * 1 + 1 * (j (0 : Fin 3)).val = win0_4.index t (0 : Fin 3) by omega),
      (show win0_5.index t (1 : Fin 3) * 512 + 1 * (j (1 : Fin 3)).val = win0_4.index t (1 : Fin 3) * 512 + (j (1 : Fin 3)).val by omega),
      (show win0_5.index t (2 : Fin 3) * 512 + 1 * (j (2 : Fin 3)).val = (j (2 : Fin 3)).val by omega)⟩
  have hd' : (⟨(j (2 : Fin 3)).val, hj2⟩ : Fin 512) = d := Fin.ext hd.symm
  have key := Tile.context_of_blocks (xs m c) (Us m c) (iblk m c 0 t) (iblk m c 1 t) b y ⟨(j (1 : Fin 3)).val, hj1⟩
    (fun u l d => seq_of_block m c t b hb u l d) (fun d => query_of_block m c t ⟨(j (1 : Fin 3)).val, hj1⟩ y hy d) ⟨(j (0 : Fin 3)).val, hj0⟩ d
  refine Eq.trans ?_ (read_block_apply (Val := Elt Ideal) main_v5_1 ((win0 5).rect t) (context (xs m c) (Us m c)) j).symm
  exact (congrArg (k0_pay5 (F := Ideal) _ _) (hx.trans (congrArg (ix3 (⟨(j (0 : Fin 3)).val, hj0⟩ : Fin 1) (⟨(j (1 : Fin 3)).val, hj1⟩ : Fin 512)) hd'))).trans
    (key.trans (congrArg (context (xs m c) (Us m c)) hi.symm))

/-- An index of the context array is in a point's block iff each coordinate is in the block's part inside the array. -/
theorem mem_context_block (t : Fin cfg0.N) (i : S8x8921x512.Idx) :
    i ∈ ((cfg0.win 5).blk t).view.set ↔ ∀ a : Fin 3, win0_5.index t a * S1x512x512.size a ≤ (i a).val
      ∧ (i a).val < win0_5.index t a * S1x512x512.size a + win0_5.xsize (grid0.coords t) a := by
  show i ∈ ((View.whole main_v5_1).slice (win0_5.rect t)).set ↔ _
  rw [View.set_slice_whole, Rect.mem_set_unit]
  exact Iff.rfl

/-- Every index of the context array is written back by the point of its sequence and label tile. -/
theorem context_cover (i : S8x8921x512.Idx) :
    ∃ t : Fin cfg0.N, (cfg0.win 5).flush t = true ∧ i ∈ ((cfg0.win 5).blk t).view.set := by
  have hi0 : (i 0).val < 8 := (i 0).isLt
  have hi1 : (i 1).val < 8921 := (i 1).isLt
  have hi2 : (i 2).val < 512 := (i 2).isLt
  obtain ⟨t, q0, q1⟩ := idx_onto ⟨(i 0).val, hi0⟩ ⟨(i 1).val / 512, by omega⟩
  have q0' : win0_4.index t (0 : Fin 3) = (i 0).val := q0
  have q1' : win0_4.index t (1 : Fin 3) = (i 1).val / 512 := q1
  obtain ⟨-, -, -, -, -, -, -, -, -, e9, e10, e11, -⟩ := Blocks.idx_facts t
  obtain ⟨-, -, -, -, x0, x2, xa, xb, -⟩ := extent_facts t
  refine ⟨t, flush0_5 t, ?_⟩
  rw [mem_context_block]
  intro a
  match a with
  | ⟨0, _⟩ =>
    show win0_5.index t (0 : Fin 3) * 1 ≤ (i 0).val ∧ (i 0).val < win0_5.index t (0 : Fin 3) * 1 + win0_5.xsize (grid0.coords t) (0 : Fin 3)
    omega
  | ⟨1, _⟩ =>
    show win0_5.index t (1 : Fin 3) * 512 ≤ (i 1).val ∧ (i 1).val < win0_5.index t (1 : Fin 3) * 512 + win0_5.xsize (grid0.coords t) (1 : Fin 3)
    omega
  | ⟨2, _⟩ =>
    show win0_5.index t (2 : Fin 3) * 512 ≤ (i 2).val ∧ (i 2).val < win0_5.index t (2 : Fin 3) * 512 + win0_5.xsize (grid0.coords t) (2 : Fin 3)
    omega

/-- The context array ends holding the labels' context vectors. -/
theorem context_final (c : Dev nD) : (dats m 0 c).arrAt 5 cfg0.N = context (xs m c) (Us m c) :=
  (dats m 0 c).arrAt_eq_of_cover 5 _ (fun t _ => flushed_context m c t) context_cover

/-! ## The logits -/

/-- The logits stacked behind a unit axis, as the third result array holds them. -/
abbrev stackedLogits (c : Dev nD) : S8x1x8921.Idx → EReal :=
  fun i => logit (xs m c) (Us m c) (Ws m c) (cs m c) (ix2 (i 0) (i 2))

set_option maxHeartbeats 400000 in
/-- What a point writes back to the logits array is its block of the stacked logits. -/
theorem flushed_logits (c : Dev nD) (t : Fin cfg0.N) :
    (dats m 0 c).flushed 6 t = ((cfg0.win 6).blk t).view.read (Elt Ideal) (stackedLogits m c) := by
  show (cfg0.win 6).cut (grid0.coords t) ((dats m 0 c).after 6 t) = _
  rw [after0_6]
  unfold out0_6
  rw [View.canon_unit_zero hz3]
  simp only [View.ld_unit_zero (S := S1x2048x512) hz3, View.ld_unit_zero (S := S512x512) hz2, View.ld_unit_zero (S := S512) hz1]
  funext j
  obtain ⟨-, -, -, -, -, -, -, -, -, -, -, -, e12, e13, e14, -⟩ := Blocks.idx_facts t
  have hj0 : (j (0 : Fin 3)).val < 1 := Nat.lt_of_lt_of_le (j (0 : Fin 3)).isLt (win0_6.xsize_le (grid0.coords t) (0 : Fin 3))
  have hj1 : (j (1 : Fin 3)).val < 1 := Nat.lt_of_lt_of_le (j (1 : Fin 3)).isLt (win0_6.xsize_le (grid0.coords t) (1 : Fin 3))
  have hj2 : (j (2 : Fin 3)).val < 512 := Nat.lt_of_lt_of_le (j (2 : Fin 3)).isLt (win0_6.xsize_le (grid0.coords t) (2 : Fin 3))
  have hx : (cfg0.win 6).xinj (grid0.coords t) j
      = ix3 (⟨(j (0 : Fin 3)).val, hj0⟩ : Fin 1) (⟨(j (1 : Fin 3)).val, hj1⟩ : Fin 1) (⟨(j (2 : Fin 3)).val, hj2⟩ : Fin 512) :=
    funext fun (a : Fin 3) => Fin.ext (by match a with | ⟨0, _⟩ => rfl | ⟨1, _⟩ => rfl | ⟨2, _⟩ => rfl)
  obtain ⟨b, z, y, hi, hb, hy⟩ : ∃ (b : Fin 8) (z : Fin 1) (y : Fin 8921),
      (win0_6.rect t).emb j = ix3 b z y ∧ b.val = win0_4.index t (0 : Fin 3)
        ∧ y.val = win0_4.index t (1 : Fin 3) * 512 + (j (2 : Fin 3)).val :=
    ⟨(win0_6.rect t).emb j (0 : Fin 3), (win0_6.rect t).emb j (1 : Fin 3), (win0_6.rect t).emb j (2 : Fin 3),
      eq_ix3 (n0 := 8) (n1 := 1) (n2 := 8921) _,
      (show win0_6.index t (0 : Fin 3) * 1 + 1 * (j (0 : Fin 3)).val = win0_4.index t (0 : Fin 3) by omega),
      (show win0_6.index t (2 : Fin 3) * 512 + 1 * (j (2 : Fin 3)).val = win0_4.index t (1 : Fin 3) * 512 + (j (2 : Fin 3)).val by omega)⟩
  have key : k0_pay6 (F := Ideal) (iblk m c 0 t) (iblk m c 1 t) (iblk m c 2 t) (iblk m c 3 t)
        (ix3 (⟨(j (0 : Fin 3)).val, hj0⟩ : Fin 1) (⟨(j (1 : Fin 3)).val, hj1⟩ : Fin 1) (⟨(j (2 : Fin 3)).val, hj2⟩ : Fin 512))
      = stackedLogits m c (ix3 b z y) :=
    Tile.logit_of_blocks (xs m c) (Us m c) (Ws m c) (cs m c) (iblk m c 0 t) (iblk m c 1 t) (iblk m c 2 t) (iblk m c 3 t) b y
      ⟨(j (2 : Fin 3)).val, hj2⟩ (fun u l d => seq_of_block m c t b hb u l d)
      (fun d => query_of_block m c t ⟨(j (2 : Fin 3)).val, hj2⟩ y hy d) (fun d => outrow_of_block m c t ⟨(j (2 : Fin 3)).val, hj2⟩ y hy d)
      (bias_of_block m c t ⟨(j (2 : Fin 3)).val, hj2⟩ y hy) ⟨(j (0 : Fin 3)).val, hj0⟩ ⟨(j (1 : Fin 3)).val, hj1⟩
  refine Eq.trans ?_ (read_block_apply (Val := Elt Ideal) main_v5_2 ((win0 6).rect t) (stackedLogits m c) j).symm
  exact (congrArg (k0_pay6 (F := Ideal) _ _ _ _) hx).trans (key.trans (congrArg (stackedLogits m c) hi.symm))

/-- An index of the logits array is in a point's block iff each coordinate is in the block's part inside the array. -/
theorem mem_logits_block (t : Fin cfg0.N) (i : S8x1x8921.Idx) :
    i ∈ ((cfg0.win 6).blk t).view.set ↔ ∀ a : Fin 3, win0_6.index t a * S1x1x512.size a ≤ (i a).val
      ∧ (i a).val < win0_6.index t a * S1x1x512.size a + win0_6.xsize (grid0.coords t) a := by
  show i ∈ ((View.whole main_v5_2).slice (win0_6.rect t)).set ↔ _
  rw [View.set_slice_whole, Rect.mem_set_unit]
  exact Iff.rfl

/-- Every index of the logits array is written back by the point of its sequence and label tile. -/
theorem logits_cover (i : S8x1x8921.Idx) :
    ∃ t : Fin cfg0.N, (cfg0.win 6).flush t = true ∧ i ∈ ((cfg0.win 6).blk t).view.set := by
  have hi0 : (i 0).val < 8 := (i 0).isLt
  have hi1 : (i 1).val < 1 := (i 1).isLt
  have hi2 : (i 2).val < 8921 := (i 2).isLt
  obtain ⟨t, q0, q1⟩ := idx_onto ⟨(i 0).val, hi0⟩ ⟨(i 2).val / 512, by omega⟩
  have q0' : win0_4.index t (0 : Fin 3) = (i 0).val := q0
  have q1' : win0_4.index t (1 : Fin 3) = (i 2).val / 512 := q1
  obtain ⟨-, -, -, -, -, -, -, -, -, -, -, -, e12, e13, e14, -⟩ := Blocks.idx_facts t
  obtain ⟨-, -, -, -, -, -, -, -, x0, x1, xa, xb⟩ := extent_facts t
  refine ⟨t, flush0_6 t, ?_⟩
  rw [mem_logits_block]
  intro a
  match a with
  | ⟨0, _⟩ =>
    show win0_6.index t (0 : Fin 3) * 1 ≤ (i 0).val ∧ (i 0).val < win0_6.index t (0 : Fin 3) * 1 + win0_6.xsize (grid0.coords t) (0 : Fin 3)
    omega
  | ⟨1, _⟩ =>
    show win0_6.index t (1 : Fin 3) * 1 ≤ (i 1).val ∧ (i 1).val < win0_6.index t (1 : Fin 3) * 1 + win0_6.xsize (grid0.coords t) (1 : Fin 3)
    omega
  | ⟨2, _⟩ =>
    show win0_6.index t (2 : Fin 3) * 512 ≤ (i 2).val ∧ (i 2).val < win0_6.index t (2 : Fin 3) * 512 + win0_6.xsize (grid0.coords t) (2 : Fin 3)
    omega

/-- The logits array ends holding the logits, stacked behind its unit axis. -/
theorem logits_final (c : Dev nD) :
    (dats m 0 c).arrAt 6 cfg0.N = fun i => logit (xs m c) (Us m c) (Ws m c) (cs m c) (ix2 (i 0) (i 2)) :=
  (dats m 0 c).arrAt_eq_of_cover 6 (stackedLogits m c) (fun t _ => flushed_logits m c t) logits_cover

end Cert.LabelAttention.Arrays

end
-- ==== Proof.Loss.lean ====
/-
  The mean binary cross-entropy of logits against targets, in its numerically stable spelling:

      mean over all (b, y) of   max(z, 0) - z * t + log(1 + exp(-|z|)),

  written once with the host operations the programs use (an elementwise maximum against a stretched zero, the product with the
  targets, the logarithm of one plus the exponential of the negated absolute value, the sum of everything from zero, the quotient
  by the number of entries, 71368 = 8 * 8921). Two programs that end with these operations on equal logits and equal targets end
  with equal losses; nothing of the operations themselves is opened.
-/
import proofs.«163239_j84421877170739_2_alg».proof.Proof.Gen.KernelIdeal
import Idealize.ShloMosaic.PureOps.Ideal

noncomputable section

namespace Cert.LabelAttention

open Idealize.ShloMosaic Cert.KernelIdeal Cert.KernelIdeal.Gen

/-- The loss of logits `z` against targets `t`. -/
def lossOf (z t : FVec Ideal S8x8921 .f32) : FVec Ideal S_ .f32 :=
  Host.divf
    (Host.reduceAdd
      (addf (subf (maximumf z (broadcastInDim S8x8921 ![] bcast_S_S8x8921 (constant (F := Ideal) S_ .f32 0x00000000#32))) (mulf z t))
        (Host.log1p (Host.exp (Host.negf (Host.absf z)))))
      (constant (F := Ideal) S_ .f32 0x00000000#32) reducesTo_S8x8921_S_d0_1 h_S_)
    (constant (F := Ideal) S_ .f32 0x478B6400#32)

end Cert.LabelAttention

end
-- ==== Proof.ReferenceValue.lean ====
/-
  The reference program's attention weights, context vectors, logits and loss, read on the extended reals.

  The reference computes, for sequences x[b, l, :], query rows U[y, :], output rows W[y, :] and biases c[y]:
  the scores sum over d of x[b, l, d] * U[y, d], transposed to (b, y, l); the largest score of each (b, y) as a fold of
  max from -infinity over l (taken once more against -infinity, which changes nothing); the exponentials of the
  scores less that peak; their sum over l from zero; the quotient, which is the softmax over l; the weighted sum of the
  positions' features; the product of that with the output row summed over d from zero, plus the bias; and the mean
  binary cross-entropy of those logits against the targets.

  Each of these is the corresponding function of the specification: the products commute under the sums, -infinity is
  the unit of max and zero the unit of the sum, and the last eleven operations are the loss's own.
-/
import proofs.«163239_j84421877170739_2_alg».proof.Proof.Gen.ReferenceIdeal.Read
import proofs.«163239_j84421877170739_2_alg».proof.Proof.Attention
import proofs.«163239_j84421877170739_2_alg».proof.Proof.Loss
import Idealize.ShloMosaic.Lib.ValueIdx
import Idealize.ShloMosaic.Lib.Pipeline.Value
import Idealize.ShloMosaic.PureOps.Ideal.Laws

noncomputable section

open scoped BigOperators

namespace Cert.LabelAttention.Reference

open Idealize.ShloMosaic Idealize.ShloMosaic.ValueIdx Idealize.ShloMosaic.RowSoftmax
open Cert.ReferenceIdeal Cert.ReferenceIdeal.Gen Cert.ReferenceIdeal.Read

/-- The word of -infinity is the bottom element of the extended reals. -/
theorem neg_inf_word : Ideal.ofBits .f32 0xFF800000#32 = (⊥ : EReal) := by simp [Ideal.ofBits, Ideal.ieee]

/-- The transposed scores at (b, y, l): the products commute under the sum over d. -/
theorem scores_apply (x0 : (⟨S8x2048x512, .f32⟩ : BufTy).Contents (Elt Ideal)) (x3 : (⟨S8921x512, .f32⟩ : BufTy).Contents (Elt Ideal))
    (b : Fin 8) (y : Fin 8921) (l : Fin 2048) :
    val_main_v1 (F := Ideal) x0 x3 (ix3 b y l) = score x0 x3 b y l := by
  rw [val_main_v1_apply, val_main_v0_apply]
  unfold score
  refine Finset.sum_congr rfl fun d _ => ?_
  have el : lidx_main_v0 (idx_main_v1 (ix3 b y l)) d = ix3 b l d :=
    funext fun a => Fin.ext (by match a with | ⟨0, _⟩ => rfl | ⟨1, _⟩ => rfl | ⟨2, _⟩ => rfl)
  have er : ridx_main_v0 (idx_main_v1 (ix3 b y l)) d = ix2 y d :=
    funext fun a => Fin.ext (by match a with | ⟨0, _⟩ => rfl | ⟨1, _⟩ => rfl)
  rw [el, er]
  exact mul_comm _ _

/-- The largest score of (b, y): the fold of max from -infinity over the positions, taken once more against -infinity. -/
theorem peak_apply (x0 : (⟨S8x2048x512, .f32⟩ : BufTy).Contents (Elt Ideal)) (x3 : (⟨S8921x512, .f32⟩ : BufTy).Contents (Elt Ideal))
    (b : Fin 8) (y : Fin 8921) :
    val_main_v4 (F := Ideal) x0 x3 (ix2 b y) = peak (score x0 x3 b y) := by
  have h : S8x8921x2048.Reduces [2] S8x8921 := by decide
  rw [val_main_v4_apply, val_main_v3_apply, val_main_cst_0_apply]
  unfold val_main_v2
  rw [Host.reduce_eq_fold_single (FloatOps.maximumf (F := Ideal) (φ := .f32)) (val_main_v1 (F := Ideal) x0 x3) _
    reducesTo_S8x8921x2048_S8x8921_d2 h h_S_ (ix2 b y), val_main_cst_apply]
  show max (Ideal.ofBits .f32 0xFF800000#32)
    (Finset.fold max (Ideal.ofBits .f32 0xFF800000#32) (fun l : Fin 2048 => val_main_v1 (F := Ideal) x0 x3 (h.lift (ix2 b y) l)) Finset.univ) = _
  rw [neg_inf_word, bot_sup_eq]
  unfold peak
  refine congrArg (fun f => Finset.fold max ⊥ f (Finset.univ : Finset (Fin 2048))) (funext fun l => ?_)
  have e : h.lift (ix2 b y) l = ix3 b y l :=
    funext fun a => Fin.ext (by match a with | ⟨0, _⟩ => rfl | ⟨1, _⟩ => rfl | ⟨2, _⟩ => rfl)
  rw [e, scores_apply]

/-- The exponential of a score less its row's peak, at (b, y, l). -/
theorem exp_apply (x0 : (⟨S8x2048x512, .f32⟩ : BufTy).Contents (Elt Ideal)) (x3 : (⟨S8921x512, .f32⟩ : BufTy).Contents (Elt Ideal))
    (b : Fin 8) (y : Fin 8921) (l : Fin 2048) :
    val_main_v8 (F := Ideal) x0 x3 (ix3 b y l) = Ideal.exp (score x0 x3 b y l - peak (score x0 x3 b y)) := by
  have e : idx_main_v5 (idx_main_v6 (ix3 b y l)) = ix2 b y :=
    funext fun a => Fin.ext (by match a with | ⟨0, _⟩ => rfl | ⟨1, _⟩ => rfl)
  rw [val_main_v8_apply, val_main_v7_apply, val_main_v6_apply, val_main_v5_apply, e, peak_apply, scores_apply]
  rfl

/-- The sum of the exponentials over the positions, from zero, at (b, y). -/
theorem rowSum_apply (x0 : (⟨S8x2048x512, .f32⟩ : BufTy).Contents (Elt Ideal)) (x3 : (⟨S8921x512, .f32⟩ : BufTy).Contents (Elt Ideal))
    (b : Fin 8) (y : Fin 8921) :
    val_main_v9 (F := Ideal) x0 x3 (ix2 b y) = ∑ l : Fin 2048, Ideal.exp (score x0 x3 b y l - peak (score x0 x3 b y)) := by
  rw [val_main_v9_apply, val_main_cst_1_apply]
  show Ideal.ofBits .f32 0x00000000#32 + _ = _
  rw [Ideal.ofBits_zero_f32, zero_add]
  refine Finset.sum_congr rfl fun l _ => ?_
  have e : idx_main_v9 (ix2 b y) l = ix3 b y l :=
    funext fun a => Fin.ext (by match a with | ⟨0, _⟩ => rfl | ⟨1, _⟩ => rfl | ⟨2, _⟩ => rfl)
  rw [e, exp_apply]

/-- The reference's quotient of the exponentials by their row sums is the softmax of the scores over the positions. -/
theorem weight_eq (x0 : (⟨S8x2048x512, .f32⟩ : BufTy).Contents (Elt Ideal)) (x3 : (⟨S8921x512, .f32⟩ : BufTy).Contents (Elt Ideal)) :
    val_main_v12 (F := Ideal) x0 x3 = weight x0 x3 := by
  funext i
  obtain ⟨b, y, l, rfl⟩ : ∃ (b : Fin 8) (y : Fin 8921) (l : Fin 2048), i = ix3 b y l := ⟨i 0, i 1, i 2, eq_ix3 i⟩
  have e : idx_main_v10 (idx_main_v11 (ix3 b y l)) = ix2 b y :=
    funext fun a => Fin.ext (by match a with | ⟨0, _⟩ => rfl | ⟨1, _⟩ => rfl)
  rw [val_main_v12_apply, val_main_v11_apply, val_main_v10_apply, e, rowSum_apply, exp_apply]
  rfl

/-- The reference's weighted sum of the positions' features is the context vector. -/
theorem context_eq (x0 : (⟨S8x2048x512, .f32⟩ : BufTy).Contents (Elt Ideal)) (x3 : (⟨S8921x512, .f32⟩ : BufTy).Contents (Elt Ideal)) :
    val_main_v13 (F := Ideal) x0 x3 = context x0 x3 := by
  funext i
  obtain ⟨b, y, d, rfl⟩ : ∃ (b : Fin 8) (y : Fin 8921) (d : Fin 512), i = ix3 b y d := ⟨i 0, i 1, i 2, eq_ix3 i⟩
  rw [val_main_v13_apply, weight_eq]
  unfold context
  refine Finset.sum_congr rfl fun l _ => ?_
  have el : lidx_main_v13 (ix3 b y d) l = ix3 b y l :=
    funext fun a => Fin.ext (by match a with | ⟨0, _⟩ => rfl | ⟨1, _⟩ => rfl | ⟨2, _⟩ => rfl)
  have er : ridx_main_v13 (ix3 b y d) l = ix3 b l d :=
    funext fun a => Fin.ext (by match a with | ⟨0, _⟩ => rfl | ⟨1, _⟩ => rfl | ⟨2, _⟩ => rfl)
  rw [el, er]

/-- The reference's output row against the context, summed from zero, plus the bias, is the logit. -/
theorem logit_eq (x0 : (⟨S8x2048x512, .f32⟩ : BufTy).Contents (Elt Ideal)) (x3 x4 : (⟨S8921x512, .f32⟩ : BufTy).Contents (Elt Ideal))
    (x5 : (⟨S8921, .f32⟩ : BufTy).Contents (Elt Ideal)) :
    val_main_v20 (F := Ideal) x0 x3 x4 x5 = logit x0 x3 x4 x5 := by
  funext i
  obtain ⟨b, y, rfl⟩ : ∃ (b : Fin 8) (y : Fin 8921), i = ix2 b y := ⟨i 0, i 1, eq_ix2 i⟩
  have ec : idx_main_v18 (idx_main_v19 (ix2 b y)) = ix1 y :=
    funext fun a => Fin.ext (by match a with | ⟨0, _⟩ => rfl)
  rw [val_main_v20_apply, val_main_v17_apply, val_main_cst_2_apply, val_main_v19_apply, val_main_v18_apply, ec]
  show (Ideal.ofBits .f32 0x00000000#32 + _) + _ = _
  rw [Ideal.ofBits_zero_f32, zero_add]
  unfold logit
  refine congrArg (· + x5 (ix1 y)) (Finset.sum_congr rfl fun d _ => ?_)
  have e : idx_main_v17 (ix2 b y) d = ix3 b y d :=
    funext fun a => Fin.ext (by match a with | ⟨0, _⟩ => rfl | ⟨1, _⟩ => rfl | ⟨2, _⟩ => rfl)
  have ew : idx_main_v14 (idx_main_v15 (ix3 b y d)) = ix2 y d :=
    funext fun a => Fin.ext (by match a with | ⟨0, _⟩ => rfl | ⟨1, _⟩ => rfl)
  rw [e, val_main_v16_apply, val_main_v15_apply, val_main_v14_apply, ew, context_eq]
  rfl

/-- The reference's last eleven operations are the loss of its logits against the targets. -/
theorem loss_eq (x0 : (⟨S8x2048x512, .f32⟩ : BufTy).Contents (Elt Ideal)) (x1 : (⟨S8x8921, .f32⟩ : BufTy).Contents (Elt Ideal))
    (x3 x4 : (⟨S8921x512, .f32⟩ : BufTy).Contents (Elt Ideal)) (x5 : (⟨S8921, .f32⟩ : BufTy).Contents (Elt Ideal)) :
    val_main_v31 (F := Ideal) x0 x1 x3 x4 x5 = lossOf (val_main_v20 (F := Ideal) x0 x3 x4 x5) x1 := rfl

end Cert.LabelAttention.Reference

end
-- ==== Proof.HostTail.lean ====
/-
  The kernel program's host operations after its region, read on the extended reals.

  After the region the program reshapes its third result, the logits stacked behind a unit axis as an [8, 1, 8921]
  array, to the [8, 8921] matrix of logits, and then takes the mean binary cross-entropy of those logits against the
  targets: max(z, 0) - z * t + log(1 + exp(-|z|)), summed from zero and divided by the number of entries. The reshape
  moves no entry: (b, 0, y) and (b, y) have the same position b * 8921 + y in row-major order. So once the third
  result holds the logits, the reshaped matrix is the logits and the last buffer is their loss against the targets.
-/
import proofs.«163239_j84421877170739_2_alg».proof.Proof.Gen.KernelIdeal.Frame
import proofs.«163239_j84421877170739_2_alg».proof.Proof.Attention
import proofs.«163239_j84421877170739_2_alg».proof.Proof.Loss
import Idealize.ShloMosaic.Lib.StableHlo.Run
import Idealize.ShloMosaic.Lib.Pipeline.FrameSuffix
import Idealize.ShloMosaic.Lib.Pipeline.Value
import Idealize.ShloMosaic.Lib.ValueIdx

noncomputable section

namespace Cert.LabelAttention.HostTail

open Idealize.ShloMosaic Idealize.ShloMosaic.TcCoe Idealize.ShloMosaic.ValueIdx
open Cert.KernelIdeal Cert.KernelIdeal.Gen

/-- A matrix stacked behind a unit axis and reshaped back is the matrix: (b, 0, y) and (b, y) have the same row-major
    position b * 8921 + y. -/
theorem reshape_stacked (z : S8x8921.Idx → EReal) (h : S8x1x8921.ShapeCasts S8x8921) :
    shapeCast S8x8921 (fun j : S8x1x8921.Idx => z (ix2 (j 0) (j 2))) h = z := by
  funext i
  obtain ⟨b, y, rfl⟩ : ∃ (b : Fin 8) (y : Fin 8921), i = ix2 b y := ⟨i 0, i 1, eq_ix2 i⟩
  exact shapeCast_apply (fun j : S8x1x8921.Idx => z (ix2 (j 0) (j 2))) h (ix2 b y) (ix3 b (0 : Fin 1) y) (by
    rw [Shape.rowMajor_val_three, Shape.rowMajor_val_two]
    show (b.val * 1 + 0) * 8921 + y.val = b.val * 8921 + y.val
    omega)

/-- After the host operations the reshaped third result holds the logits. -/
theorem logits_after (m : (ℓ : Loc nD τ sig) → Buf (Elt Ideal) ℓ) (c : Dev nD)
    (h6 : (dats m 0 c).arrAt 6 cfg0.N = fun i => logit (m ((c : Thread nD τ).loc main_arg0)) (m ((c : Thread nD τ).loc main_arg3))
      (m ((c : Thread nD τ).loc main_arg4)) (m ((c : Thread nD τ).loc main_arg5)) (ix2 (i 0) (i 2))) :
    Pipeline.afterTail₀ cfgs (dats m) 0 (V0 m) [hostOps1] c main_v6
      = logit (m ((c : Thread nD τ).loc main_arg0)) (m ((c : Thread nD τ).loc main_arg3))
          (m ((c : Thread nD τ).loc main_arg4)) (m ((c : Thread nD τ).loc main_arg5)) := by
  unfold Pipeline.afterTail₀
  show StableHlo.after hostOps1 _ (Proc.devRef .tc main_v6) = _
  generalize hW : Pipeline.withArrays (cfgs 0).spec c (V0 m c) (fun w => (dats m 0 c).arrAt w (cfgs 0).N) = Wv
  have e5 : Wv (Proc.devRef .tc main_v5_2) = fun i => logit (m ((c : Thread nD τ).loc main_arg0)) (m ((c : Thread nD τ).loc main_arg3))
      (m ((c : Thread nD τ).loc main_arg4)) (m ((c : Thread nD τ).loc main_arg5)) (ix2 (i 0) (i 2)) := by
    rw [← hW]
    exact (Pipeline.withArrays_arr spec0 launch0.win.arr_inj c (V0 m c) _ 6).trans h6
  after_results
  rw [e5]
  exact reshape_stacked _ _

/-- After the host operations the last buffer holds the loss of the logits against the targets. -/
theorem loss_after (m : (ℓ : Loc nD τ sig) → Buf (Elt Ideal) ℓ) (c : Dev nD)
    (h6 : (dats m 0 c).arrAt 6 cfg0.N = fun i => logit (m ((c : Thread nD τ).loc main_arg0)) (m ((c : Thread nD τ).loc main_arg3))
      (m ((c : Thread nD τ).loc main_arg4)) (m ((c : Thread nD τ).loc main_arg5)) (ix2 (i 0) (i 2))) :
    Pipeline.afterTail₀ cfgs (dats m) 0 (V0 m) [hostOps1] c main_v17
      = lossOf (logit (m ((c : Thread nD τ).loc main_arg0)) (m ((c : Thread nD τ).loc main_arg3))
          (m ((c : Thread nD τ).loc main_arg4)) (m ((c : Thread nD τ).loc main_arg5))) (m ((c : Thread nD τ).loc main_arg1)) := by
  unfold Pipeline.afterTail₀
  show StableHlo.after hostOps1 _ (Proc.devRef .tc main_v17) = _
  generalize hW : Pipeline.withArrays (cfgs 0).spec c (V0 m c) (fun w => (dats m 0 c).arrAt w (cfgs 0).N) = Wv
  have e5 : Wv (Proc.devRef .tc main_v5_2) = fun i => logit (m ((c : Thread nD τ).loc main_arg0)) (m ((c : Thread nD τ).loc main_arg3))
      (m ((c : Thread nD τ).loc main_arg4)) (m ((c : Thread nD τ).loc main_arg5)) (ix2 (i 0) (i 2)) := by
    rw [← hW]
    exact (Pipeline.withArrays_arr spec0 launch0.win.arr_inj c (V0 m c) _ 6).trans h6
  have e1 : Wv (Proc.devRef .tc main_arg1) = m ((c : Thread nD τ).loc main_arg1) := by
    rw [← hW]
    exact (Pipeline.withArrays_of_ne _ c (V0 m c) _ main_arg1 (by exact (by decide : ∀ w, Pipeline.arrRef spec0 w ≠ main_arg1))).trans
      (V_main_arg1 m c)
  after_results
  rw [e5, e1]
  show lossOf (shapeCast S8x8921 (fun j : S8x1x8921.Idx => logit (m ((c : Thread nD τ).loc main_arg0)) (m ((c : Thread nD τ).loc main_arg3))
      (m ((c : Thread nD τ).loc main_arg4)) (m ((c : Thread nD τ).loc main_arg5)) (ix2 (j 0) (j 2))) shapeCasts_S8x1x8921_S8x8921) _ = _
  rw [reshape_stacked]

end Cert.LabelAttention.HostTail

end
-- ==== Proof.Claims.lean ====
/-
  The certificate's five claims, from what the kernel program's three output arrays hold after its region.

  The kernel program leaves the attention weights and the context vectors in its first two output arrays and the
  logits, stacked behind a unit axis, in its third; its host operations after the region reshape the third to the
  matrix of logits and take their loss against the targets. The reference program computes the same four quantities
  of the same arguments. So from memories that agree on the arguments both programs run, end with the logits, the
  loss, the weights and the context of the kernel program's arguments, and leave the arguments as they were. The
  three frame claims are the programs' runs with their results forgotten; the idealization rewrote no operation.
-/
import proofs.«163239_j84421877170739_2_alg».proof.Defs
import proofs.«163239_j84421877170739_2_alg».proof.Proof.Gen.Kernel.Frame
import proofs.«163239_j84421877170739_2_alg».proof.Proof.Gen.KernelIdeal.Frame
import proofs.«163239_j84421877170739_2_alg».proof.Proof.Gen.ReferenceIdeal.Run
import proofs.«163239_j84421877170739_2_alg».proof.Proof.Gen.ReferenceIdeal.Read
import proofs.«163239_j84421877170739_2_alg».proof.Proof.Gen.Pre_finite_inputs
import proofs.«163239_j84421877170739_2_alg».proof.Proof.ReferenceValue
import proofs.«163239_j84421877170739_2_alg».proof.Proof.HostTail
import proofs.«163239_j84421877170739_2_alg».proof.Proof.Attention
import proofs.«163239_j84421877170739_2_alg».proof.Proof.Loss

noncomputable section

namespace Cert.LabelAttention.Claims

open Idealize.ShloMosaic Idealize.ShloMosaic.TcCoe Idealize.ShloMosaic.ValueIdx Idealize.SL.Sem

section KernelRun

open Cert.KernelIdeal Cert.KernelIdeal.Gen

/-- The idealized kernel program's run with every result named: the logits, their loss against the targets, the
    attention weights and the context vectors of its arguments, the arguments unchanged. -/
theorem kernel_run
    (h4 : ∀ (m : (ℓ : Loc nD τ sig) → Buf (Elt Ideal) ℓ) (c : Dev nD),
      (dats m 0 c).arrAt 4 cfg0.N = weight (m ((c : Thread nD τ).loc main_arg0)) (m ((c : Thread nD τ).loc main_arg3)))
    (h5 : ∀ (m : (ℓ : Loc nD τ sig) → Buf (Elt Ideal) ℓ) (c : Dev nD),
      (dats m 0 c).arrAt 5 cfg0.N = context (m ((c : Thread nD τ).loc main_arg0)) (m ((c : Thread nD τ).loc main_arg3)))
    (h6 : ∀ (m : (ℓ : Loc nD τ sig) → Buf (Elt Ideal) ℓ) (c : Dev nD),
      (dats m 0 c).arrAt 6 cfg0.N = fun i => logit (m ((c : Thread nD τ).loc main_arg0)) (m ((c : Thread nD τ).loc main_arg3))
        (m ((c : Thread nD τ).loc main_arg4)) (m ((c : Thread nD τ).loc main_arg5)) (ix2 (i 0) (i 2)))
    (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v6) = logit (m ((c : Thread nD τ).loc main_arg0)) (m ((c : Thread nD τ).loc main_arg3))
          (m ((c : Thread nD τ).loc main_arg4)) (m ((c : Thread nD τ).loc main_arg5))
      ∧ r.2.mem ((c.tc : Thread nD τ).loc main_v17) = lossOf (logit (m ((c : Thread nD τ).loc main_arg0)) (m ((c : Thread nD τ).loc main_arg3))
          (m ((c : Thread nD τ).loc main_arg4)) (m ((c : Thread nD τ).loc main_arg5))) (m ((c : Thread nD τ).loc main_arg1))
      ∧ r.2.mem ((c.tc : Thread nD τ).loc main_v5_0) = weight (m ((c : Thread nD τ).loc main_arg0)) (m ((c : Thread nD τ).loc main_arg3))
      ∧ r.2.mem ((c.tc : Thread nD τ).loc main_v5_1) = context (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v6 (Pipeline.mem_restRefs_of main_v6 (by decide) (by decide))).trans (HostTail.logits_after m c (h6 m c)),
      ((h c).2 main_v17 (Pipeline.mem_restRefs_of main_v17 (by decide) (by decide))).trans (HostTail.loss_after m c (h6 m c)),
      ((h c).1 4).trans (h4 m c),
      ((h c).1 5).trans (h5 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end KernelRun

section All

open Cert.KernelIdeal Cert.KernelIdeal.Gen

/-- The five claims: the three programs run and leave their arguments unchanged; the idealization rewrote nothing;
    and, from memories agreeing on the arguments, the idealized kernel program and the reference program end with the
    same logits, loss, attention weights and context vectors — those of the kernel program's arguments. -/
theorem claims
    (h4 : ∀ (m : (ℓ : Loc nD τ sig) → Buf (Elt Ideal) ℓ) (c : Dev nD),
      (dats m 0 c).arrAt 4 cfg0.N = weight (m ((c : Thread nD τ).loc main_arg0)) (m ((c : Thread nD τ).loc main_arg3)))
    (h5 : ∀ (m : (ℓ : Loc nD τ sig) → Buf (Elt Ideal) ℓ) (c : Dev nD),
      (dats m 0 c).arrAt 5 cfg0.N = context (m ((c : Thread nD τ).loc main_arg0)) (m ((c : Thread nD τ).loc main_arg3)))
    (h6 : ∀ (m : (ℓ : Loc nD τ sig) → Buf (Elt Ideal) ℓ) (c : Dev nD),
      (dats m 0 c).arrAt 6 cfg0.N = fun i => logit (m ((c : Thread nD τ).loc main_arg0)) (m ((c : Thread nD τ).loc main_arg3))
        (m ((c : Thread nD τ).loc main_arg4)) (m ((c : Thread nD τ).loc main_arg5)) (ix2 (i 0) (i 2))) :
    Cert.frame_Kernel ∧ Cert.frame_KernelIdeal ∧ Cert.frame_ReferenceIdeal ∧ Cert.preserves_Kernel_KernelIdeal
      ∧ Cert.algebraic_KernelIdeal_ReferenceIdeal := by
  refine ⟨fun m ρ _ => Cert.Kernel.Gen.frame m ρ, fun m ρ _ => Cert.KernelIdeal.Gen.frame m ρ,
    fun m ρ _ => (θ_run Cert.ReferenceIdeal.defs _ _).mono (fun _ h c => (h c).2.2.2.2)
      (Cert.ReferenceIdeal.Value.run (F := Ideal) m ρ),
    trivial, ?_⟩
  intro m ρ m' ρ' _ hagree
  refine ⟨fun c => logit (m ((c : Thread nD τ).loc main_arg0)) (m ((c : Thread nD τ).loc main_arg3))
        (m ((c : Thread nD τ).loc main_arg4)) (m ((c : Thread nD τ).loc main_arg5)),
    fun c => lossOf (logit (m ((c : Thread nD τ).loc main_arg0)) (m ((c : Thread nD τ).loc main_arg3))
        (m ((c : Thread nD τ).loc main_arg4)) (m ((c : Thread nD τ).loc main_arg5))) (m ((c : Thread nD τ).loc main_arg1)),
    fun c => weight (m ((c : Thread nD τ).loc main_arg0)) (m ((c : Thread nD τ).loc main_arg3)),
    fun c => context (m ((c : Thread nD τ).loc main_arg0)) (m ((c : Thread nD τ).loc main_arg3)),
    kernel_run h4 h5 h6 m ρ, ?_⟩
  refine (θ_run Cert.ReferenceIdeal.defs _ _).mono (fun _ h c => ⟨?_, ?_, ?_, ?_, (h c).2.2.2.2⟩)
    (Cert.ReferenceIdeal.Value.run (F := Ideal) m' ρ')
  · rw [(h c).1, Cert.ReferenceIdeal.Read.val_main_v20_eq (F := Ideal), Reference.logit_eq,
      (hagree c).1, (hagree c).2.2.2.1, (hagree c).2.2.2.2.1, (hagree c).2.2.2.2.2]
  · rw [(h c).2.1, Cert.ReferenceIdeal.Read.val_main_v31_eq (F := Ideal) m' c, Reference.loss_eq, Reference.logit_eq,
      (hagree c).1, (hagree c).2.1, (hagree c).2.2.2.1, (hagree c).2.2.2.2.1, (hagree c).2.2.2.2.2]
  · rw [(h c).2.2.1, Cert.ReferenceIdeal.Read.val_main_v12_eq (F := Ideal), Reference.weight_eq,
      (hagree c).1, (hagree c).2.2.2.1]
  · rw [(h c).2.2.2.1, Cert.ReferenceIdeal.Read.val_main_v13_eq (F := Ideal), Reference.context_eq,
      (hagree c).1, (hagree c).2.2.2.1]

end All

end Cert.LabelAttention.Claims

end
-- ==== Proof.lean ====
/-
  Per-label attention with a binary cross-entropy loss: a tiled kernel against its plain reference, on the extended reals.

  Both programs take a batch of sequences x[b, l, :], query rows U[y, :], output rows W[y, :], biases c[y] and targets t[b, y]
  (8 sequences of 2048 positions and 512 features; 8921 labels) and return

    the logits   z[b, y] = (sum over d of W[y, d] * m[b, y, d]) + c[y],
    the loss     the mean over (b, y) of max(z, 0) - z * t + log(1 + exp(-|z|)),
    the weights  a[b, y, :] = the softmax over the positions l of  sum over d of U[y, d] * x[b, l, d],
    the context  m[b, y, d] = sum over l of a[b, y, l] * x[b, l, d].

  The kernel walks a grid of 8 sequences by 18 tiles of 512 labels over zero-padded copies of U, W and c, writes each tile of a,
  m and z back cut at label 8920, and takes the loss of the reshaped z on the host; the reference forms every array whole. On the
  extended reals a change of float format is the identity and a matrix product or a lane reduction is the plain finite sum or
  fold, so the two sides differ only in the order of the two factors of a score's products, which commute; no finiteness of the
  inputs is used. The modules: Attention (the four functions), Loss (the loss as one function of logits and targets), Body and
  Tile (what the body stores at a point, as restrictions of the functions), Entry and Blocks (what the region finds in its
  arrays, and where each block sits), Arrays (the result arrays after the run, by covering them with the blocks written back),
  HostTail (the reshape and the loss after the region), ReferenceValue (the reference's results are the same functions), Claims
  (the five claims from these).
-/
import proofs.«163239_j84421877170739_2_alg».proof.Defs
import proofs.«163239_j84421877170739_2_alg».proof.Proof.Gen.Kernel
import proofs.«163239_j84421877170739_2_alg».proof.Proof.Gen.Kernel.Frame
import proofs.«163239_j84421877170739_2_alg».proof.Proof.Gen.KernelIdeal
import proofs.«163239_j84421877170739_2_alg».proof.Proof.Gen.KernelIdeal.Frame
import proofs.«163239_j84421877170739_2_alg».proof.Proof.Gen.ReferenceIdeal
import proofs.«163239_j84421877170739_2_alg».proof.Proof.Gen.Pre_finite_inputs
import proofs.«163239_j84421877170739_2_alg».proof.Proof.Gen.ReferenceIdeal.Run
import proofs.«163239_j84421877170739_2_alg».proof.Proof.Gen.ReferenceIdeal.Read
import proofs.«163239_j84421877170739_2_alg».proof.Proof.Arrays
import proofs.«163239_j84421877170739_2_alg».proof.Proof.Claims

noncomputable section

namespace Cert.Proof

open Cert.LabelAttention

/-- The certificate's claims, under the programs' stated side conditions: the five claims follow from what the kernel program's
    three result arrays hold after its region. -/
theorem claim : Cert.Claim :=
  ⟨Cert.Kernel.Gen.facts, Cert.KernelIdeal.Gen.facts, Cert.ReferenceIdeal.Gen.facts, Cert.Pre_finite_inputs.Gen.facts,
    Claims.claims Arrays.weights_final Arrays.context_final Arrays.logits_final⟩

end Cert.Proof

end
